-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_temp" .f32 0x41A00000#32 ((268435456 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x2048 : Shape := ⟨2, ![256, 2048]⟩
abbrev S256 : Shape := ⟨1, ![256]⟩
abbrev S65536x2048 : Shape := ⟨2, ![65536, 2048]⟩
abbrev S65536 : Shape := ⟨1, ![65536]⟩
abbrev S_ : Shape := ⟨0, ![]⟩

class Facts : Prop where
  bcast_S_S256x2048 : S_.BroadcastsInDim S256x2048 (![] : Fin 0 → Fin S256x2048.rank)
  reducesTo_S256x2048_S_d0_1 : S256x2048.ReducesTo [0, 1] S_
  h_S_ : 0 < S_.numel
  bcast_S_S65536x2048 : S_.BroadcastsInDim S65536x2048 (![] : Fin 0 → Fin S65536x2048.rank)
  reducesTo_S65536x2048_S_d0_1 : S65536x2048.ReducesTo [0, 1] S_
  bcast_S_S65536 : S_.BroadcastsInDim S65536 (![] : Fin 0 → Fin S65536.rank)
  reducesTo_S65536_S_d0 : S65536.ReducesTo [0] S_
  reducesTo_S256x2048_S256_d1 : S256x2048.ReducesTo [1] S256
  bcast_S_S256 : S_.BroadcastsInDim S256 (![] : Fin 0 → Fin S256.rank)
  reducesTo_S256_S_d0 : S256.ReducesTo [0] S_

variable [Facts]

def fn_part1 {F : FTy → Type} [FloatOps F] (main_arg0 : FVec F S256x2048 .f32) (main_v12 : IVec S_ 1) (main_v15 : IVec S_ 1) : IVec S_ 1 :=
  let main_v16 : IVec S_ 1 := andi main_v12 main_v15
  let main_v17 : FVec F S256x2048 .f32 := mulf main_arg0 main_arg0
  let main_cst_6 : FVec F S_ .f32 := constant S_ .f32 0x00000000#32
  let main_v18 : FVec F S256 .f32 := (fun x v => Host.reduceAdd x v reducesTo_S256x2048_S256_d1 h_S_) main_v17 main_cst_6
  let main_cst_7 : FVec F S_ .f32 := constant S_ .f32 0x00000000#32
  let main_v19 : FVec F S256 .f32 := broadcastInDim S256 ![] bcast_S_S256 main_cst_7
  let main_v20 : IVec S256 1 := cmpf .ogt main_v18 main_v19
  let main_c_8 : IVec S_ 1 := constantI S_ 1 1#1
  let main_v21 : IVec S_ 1 := (fun x v => Host.reduce IntOp.andi x v reducesTo_S256_S_d0 h_S_) main_v20 main_c_8
  let main_v22 : IVec S_ 1 := andi main_v16 main_v21
  main_v22

def fn {F : FTy → Type} [FloatOps F] (main_arg0 : FVec F S256x2048 .f32) (main_arg1 : IVec S256 32) (main_arg2 : FVec F S65536x2048 .f32) (main_arg3 : IVec S65536 32) : IVec S_ 1 :=
  let main_v0 : FVec F S256x2048 .f32 := Host.absf main_arg0
  let main_cst : FVec F S_ .f32 := constant S_ .f32 0x7F800000#32
  let main_v1 : FVec F S256x2048 .f32 := broadcastInDim S256x2048 ![] bcast_S_S256x2048 main_cst
  let main_v2 : IVec S256x2048 1 := cmpf .olt main_v0 main_v1
  let main_c : IVec S_ 1 := constantI S_ 1 1#1
  let main_v3 : IVec S_ 1 := (fun x v => Host.reduce IntOp.andi x v reducesTo_S256x2048_S_d0_1 h_S_) main_v2 main_c
  let main_v4 : FVec F S65536x2048 .f32 := Host.absf main_arg2
  let main_cst_0 : FVec F S_ .f32 := constant S_ .f32 0x7F800000#32
  let main_v5 : FVec F S65536x2048 .f32 := broadcastInDim S65536x2048 ![] bcast_S_S65536x2048 main_cst_0
  let main_v6 : IVec S65536x2048 1 := cmpf .olt main_v4 main_v5
  let main_c_1 : IVec S_ 1 := constantI S_ 1 1#1
  let main_v7 : IVec S_ 1 := (fun x v => Host.reduce IntOp.andi x v reducesTo_S65536x2048_S_d0_1 h_S_) main_v6 main_c_1
  let main_v8 : IVec S_ 1 := andi main_v3 main_v7
  let main_c_2 : IVec S_ 32 := constantI S_ 32 0#32
  let main_v9 : IVec S65536 32 := broadcastInDim S65536 ![] bcast_S_S65536 main_c_2
  let main_v10 : IVec S65536 1 := cmpi .sge main_arg3 main_v9
  let main_c_3 : IVec S_ 1 := constantI S_ 1 1#1
  let main_v11 : IVec S_ 1 := (fun x v => Host.reduce IntOp.andi x v reducesTo_S65536_S_d0 h_S_) main_v10 main_c_3
  let main_v12 : IVec S_ 1 := andi main_v8 main_v11
  let main_c_4 : IVec S_ 32 := constantI S_ 32 8000#32
  let main_v13 : IVec S65536 32 := broadcastInDim S65536 ![] bcast_S_S65536 main_c_4
  let main_v14 : IVec S65536 1 := cmpi .slt main_arg3 main_v13
  let main_c_5 : IVec S_ 1 := constantI S_ 1 1#1
  let main_v15 : IVec S_ 1 := (fun x v => Host.reduce IntOp.andi x v reducesTo_S65536_S_d0 h_S_) main_v14 main_c_5
  fn_part1 (F := F) main_arg0 main_v12 main_v15
-- ==== Kernel.lean ====
abbrev S256x2048 : Shape := ⟨2, ![256, 2048]⟩
abbrev S256 : Shape := ⟨1, ![256]⟩
abbrev S65536x2048 : Shape := ⟨2, ![65536, 2048]⟩
abbrev S65536 : Shape := ⟨1, ![65536]⟩
abbrev S_ : Shape := ⟨0, ![]⟩
abbrev S256x1 : Shape := ⟨2, ![256, 1]⟩
abbrev S8000x2048 : Shape := ⟨2, ![8000, 2048]⟩
abbrev S65536x1 : Shape := ⟨2, ![65536, 1]⟩
abbrev S8000 : Shape := ⟨1, ![8000]⟩
abbrev S8192x2048 : Shape := ⟨2, ![8192, 2048]⟩
abbrev S8192 : Shape := ⟨1, ![8192]⟩
abbrev S256x8192 : Shape := ⟨2, ![256, 8192]⟩
abbrev S1024x2048 : Shape := ⟨2, ![1024, 2048]⟩
abbrev S256x1024 : Shape := ⟨2, ![256, 1024]⟩
abbrev S1x8192 : Shape := ⟨2, ![1, 8192]⟩
abbrev S256x2 : Shape := ⟨2, ![256, 2]⟩

abbrev nBuf : Space → Nat
  | .hbm => 90
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S256, .i32⟩
  | .hbm, ⟨2, _⟩ => ⟨S65536x2048, .f32⟩
  | .hbm, ⟨3, _⟩ => ⟨S65536, .i32⟩
  | .hbm, ⟨4, _⟩ => ⟨S256x2048, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S256x1, .f32⟩
  | .hbm, ⟨9, _⟩ => ⟨S256x2048, .f32⟩
  | .hbm, ⟨10, _⟩ => ⟨S256x2048, .f32⟩
  | .hbm, ⟨11, _⟩ => ⟨S256x2048, .bf16⟩
  | .hbm, ⟨12, _⟩ => ⟨S_, .f32⟩
  | .hbm, ⟨13, _⟩ => ⟨S8000x2048, .f32⟩
  | .hbm, ⟨14, _⟩ => ⟨S65536x1, .i32⟩
  | .hbm, ⟨15, _⟩ => ⟨S8000x2048, .f32⟩
  | .hbm, ⟨16, _⟩ => ⟨S_, .f32⟩
  | .hbm, ⟨17, _⟩ => ⟨S65536, .f32⟩
  | .hbm, ⟨18, _⟩ => ⟨S_, .f32⟩
  | .hbm, ⟨19, _⟩ => ⟨S8000, .f32⟩
  | .hbm, ⟨20, _⟩ => ⟨S65536x1, .i32⟩
  | .hbm, ⟨21, _⟩ => ⟨S8000, .f32⟩
  | .hbm, ⟨22, _⟩ => ⟨S_, .i32⟩
  | .hbm, ⟨23, _⟩ => ⟨S_, .f32⟩
  | .hbm, ⟨24, _⟩ => ⟨S8192x2048, .f32⟩
  | .hbm, ⟨25, _⟩ => ⟨S_, .i32⟩
  | .hbm, ⟨26, _⟩ => ⟨S_, .f32⟩
  | .hbm, ⟨27, _⟩ => ⟨S8192, .f32⟩
  | .hbm, ⟨28, _⟩ => ⟨S8192x2048, .bf16⟩
  | .hbm, ⟨29, _⟩ => ⟨S_, .f32⟩
  | .hbm, ⟨30, _⟩ => ⟨S8192, .f32⟩
  | .hbm, ⟨31, _⟩ => ⟨S8192, .i1⟩
  | .hbm, ⟨32, _⟩ => ⟨S256x8192, .f32⟩
  | .hbm, ⟨33, _⟩ => ⟨S_, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S1x8192, .f32⟩
  | .hbm, ⟨38, _⟩ => ⟨S256x8192, .f32⟩
  | .hbm, ⟨39, _⟩ => ⟨S256x8192, .f32⟩
  | .hbm, ⟨40, _⟩ => ⟨S256x8192, .f32⟩
  | .hbm, ⟨41, _⟩ => ⟨S1x8192, .i1⟩
  | .hbm, ⟨42, _⟩ => ⟨S1x8192, .f32⟩
  | .hbm, ⟨43, _⟩ => ⟨S256x8192, .f32⟩
  | .hbm, ⟨44, _⟩ => ⟨S256x8192, .f32⟩
  | .hbm, ⟨45, _⟩ => ⟨S_, .f32⟩
  | .hbm, ⟨46, _⟩ => ⟨S256, .f32⟩
  | .hbm, ⟨47, _⟩ => ⟨S256x1, .f32⟩
  | .hbm, ⟨48, _⟩ => ⟨S_, .f32⟩
  | .hbm, ⟨49, _⟩ => ⟨S256x1, .f32⟩
  | .hbm, ⟨50, _⟩ => ⟨S256x1, .f32⟩
  | .hbm, ⟨51, _⟩ => ⟨S256x8192, .f32⟩
  | .hbm, ⟨52, _⟩ => ⟨S256x8192, .f32⟩
  | .hbm, ⟨53, _⟩ => ⟨S_, .i32⟩
  | .hbm, ⟨54, _⟩ => ⟨S256, .i32⟩
  | .hbm, ⟨55, _⟩ => ⟨S256, .i1⟩
  | .hbm, ⟨56, _⟩ => ⟨S_, .i32⟩
  | .hbm, ⟨57, _⟩ => ⟨S256, .i32⟩
  | .hbm, ⟨58, _⟩ => ⟨S256, .i32⟩
  | .hbm, ⟨59, _⟩ => ⟨S256, .i32⟩
  | .hbm, ⟨60, _⟩ => ⟨S256x1, .i32⟩
  | .hbm, ⟨61, _⟩ => ⟨S256, .i32⟩
  | .hbm, ⟨62, _⟩ => ⟨S_, .f32⟩
  | .hbm, ⟨63, _⟩ => ⟨S256x8192, .f32⟩
  | .hbm, ⟨64, _⟩ => ⟨S256x8192, .f32⟩
  | .hbm, ⟨65, _⟩ => ⟨S256x8192, .f32⟩
  | .hbm, ⟨66, _⟩ => ⟨S256, .i32⟩
  | .hbm, ⟨67, _⟩ => ⟨S_, .i32⟩
  | .hbm, ⟨68, _⟩ => ⟨S256, .i32⟩
  | .hbm, ⟨69, _⟩ => ⟨S256, .i1⟩
  | .hbm, ⟨70, _⟩ => ⟨S_, .i32⟩
  | .hbm, ⟨71, _⟩ => ⟨S256, .i32⟩
  | .hbm, ⟨72, _⟩ => ⟨S256, .i32⟩
  | .hbm, ⟨73, _⟩ => ⟨S256, .i32⟩
  | .hbm, ⟨74, _⟩ => ⟨S_, .i32⟩
  | .hbm, ⟨75, _⟩ => ⟨S256, .i32⟩
  | .hbm, ⟨76, _⟩ => ⟨S256, .i1⟩
  | .hbm, ⟨77, _⟩ => ⟨S_, .i32⟩
  | .hbm, ⟨78, _⟩ => ⟨S256, .i32⟩
  | .hbm, ⟨79, _⟩ => ⟨S256, .i32⟩
  | .hbm, ⟨80, _⟩ => ⟨S256, .i32⟩
  | .hbm, ⟨81, _⟩ => ⟨S256x1, .i32⟩
  | .hbm, ⟨82, _⟩ => ⟨S256x1, .i32⟩
  | .hbm, ⟨83, _⟩ => ⟨S256x2, .i32⟩
  | .hbm, ⟨84, _⟩ => ⟨S256, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .local _ .vmem, ⟨0, _⟩ => ⟨S256x2048, .bf16⟩
  | .local _ .vmem, ⟨1, _⟩ => ⟨S1024x2048, .bf16⟩
  | .local _ .vmem, ⟨2, _⟩ => ⟨S1024x2048, .bf16⟩
  | .local _ .vmem, ⟨3, _⟩ => ⟨S256x1024, .f32⟩
  | .local _ .vmem, ⟨4, _⟩ => ⟨S256x1024, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_call1_v0 : Ref sig .tc := ⟨.hbm, 23, rfl⟩
abbrev main_v11 : Ref sig .tc := ⟨.hbm, 24, rfl⟩
abbrev main_c_2 : Ref sig .tc := ⟨.hbm, 25, rfl⟩
abbrev main_call2_v0 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_4 : Ref sig .tc := ⟨.hbm, 33, rfl⟩
abbrev main_call3_v0 : Ref sig .tc := ⟨.hbm, 34, rfl⟩
abbrev main_call3_v1 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_cst_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_c_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_9 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_10 : Ref sig .tc := ⟨.hbm, 67, rfl⟩
abbrev main_v43 : Ref sig .tc := ⟨.hbm, 68, rfl⟩
abbrev main_v44 : Ref sig .tc := ⟨.hbm, 69, rfl⟩
abbrev main_c_11 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_c_12 : Ref sig .tc := ⟨.hbm, 74, rfl⟩
abbrev main_v48 : Ref sig .tc := ⟨.hbm, 75, rfl⟩
abbrev main_v49 : Ref sig .tc := ⟨.hbm, 76, rfl⟩
abbrev main_c_13 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_14 : Ref sig .tc := ⟨.hbm, 85, rfl⟩
abbrev main_v57 : Ref sig .tc := ⟨.hbm, 86, rfl⟩
abbrev main_cst_15 : Ref sig .tc := ⟨.hbm, 87, rfl⟩
abbrev main_v58 : Ref sig .tc := ⟨.hbm, 88, rfl⟩
abbrev main_v59 : Ref sig .tc := ⟨.hbm, 89, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S256x2048_S256_d1 : S256x2048.ReducesTo [1] S256
  h_S_ : 0 < S_.numel
  bcast_S256_S256x1_0 : S256.BroadcastsInDim S256x1 (![0] : Fin 1 → Fin S256x1.rank)
  bcast_S256x1_S256x2048_0_1 : S256x1.BroadcastsInDim S256x2048 (![0, 1] : Fin 2 → Fin S256x2048.rank)
  bitsLt_bf16_f32 : FTy.bits .bf16 < FTy.bits .f32
  bcast_S_S8000x2048 : S_.BroadcastsInDim S8000x2048 (![] : Fin 0 → Fin S8000x2048.rank)
  bcast_S65536_S65536x1_0 : S65536.BroadcastsInDim S65536x1 (![0] : Fin 1 → Fin S65536x1.rank)
  bcast_S_S65536 : S_.BroadcastsInDim S65536 (![] : Fin 0 → Fin S65536.rank)
  bcast_S_S8000 : S_.BroadcastsInDim S8000 (![] : Fin 0 → Fin S8000.rank)
  pads_S8000x2048_S8192x2048_01920_000 : S8000x2048.Pads (![0, 0] : Fin 2 → Nat) ![192, 0] ![0, 0] S8192x2048
  pads_S8000_S8192_01920 : S8000.Pads (![0] : Fin 1 → Nat) ![192] ![0] S8192
  bcast_S_S8192 : S_.BroadcastsInDim S8192 (![] : Fin 0 → Fin S8192.rank)
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S256x1024_S256x1024_0_0 : ∀ a, (![0, 0] : Fin 2 → Nat) a + S256x1024.size a ≤ S256x1024.size a
  h_S256x1024 : 0 < S256x1024.numel
  bcast_S8192_S1x8192_1 : S8192.BroadcastsInDim S1x8192 (![1] : Fin 1 → Fin S1x8192.rank)
  bcast_S1x8192_S256x8192_0_1 : S1x8192.BroadcastsInDim S256x8192 (![0, 1] : Fin 2 → Fin S256x8192.rank)
  reducesTo_S256x8192_S256_d1 : S256x8192.ReducesTo [1] S256
  bcast_S_S256x1 : S_.BroadcastsInDim S256x1 (![] : Fin 0 → Fin S256x1.rank)
  bcast_S256x1_S256x8192_0_1 : S256x1.BroadcastsInDim S256x8192 (![0, 1] : Fin 2 → Fin S256x8192.rank)
  bcast_S_S256 : S_.BroadcastsInDim S256 (![] : Fin 0 → Fin S256.rank)
  bcast_S_S256x8192 : S_.BroadcastsInDim S256x8192 (![] : Fin 0 → Fin S256x8192.rank)
  concatenates_S256x1_S256x1_S256x2_d1 : Shape.Concatenates [S256x1, S256x1] S256x2 1
  reducesTo_S256_S_d0 : S256.ReducesTo [0] S_
  scatter_S8000x2048_S65536x1_S65536x2048_1_0_0_1_wf : ScatterDims.WF S8000x2048 S65536x1 S65536x2048 [1] [0] [0] 1
  scatter_S8000_S65536x1_S65536_n_0_0_1_wf : ScatterDims.WF S8000 S65536x1 S65536 [] [0] [0] 1
  dot_S256x2048_S1024x2048_S256x1024_1_1_0_0_n_n_wf : DotDims.WF S256x2048 S1024x2048 S256x1024 [1] [1] [0] [0] [] []
  gather_S65536_S256x1_S256_n_0_n_n_0_1_1_wf : GatherDims.WF S65536 S256x1 S256 [] [0] [] [0] [] 1 ![1]
  gather_S256x8192_S256x2_S256_n_01_n_n_01_1_11_wf : GatherDims.WF S256x8192 S256x2 S256 [] [0, 1] [] [0, 1] [] 1 ![1, 1]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S256x2048.size a
  hwx0_0 : ∀ i : grid0.Coords, EltTy.bits .bf16 = 32 ∨ (Rect.block (s := S256x2048) S256x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S8192x2048.size a
  hwx0_1 : ∀ i : grid0.Coords, EltTy.bits .bf16 = 32 ∨ (Rect.block (s := S8192x2048) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x8192.size a
  hwx0_2 : ∀ i : grid0.Coords, EltTy.bits .f32 = 32 ∨ (Rect.block (s := S256x8192) S256x1024.size (cc0_transform_2 i) (hinb0_2 i)).WholeWords (EltTy.packing .f32)

variable [Facts₀]

def scatter_S8000x2048_S65536x1_S65536x2048_1_0_0_1 : ScatterDims S8000x2048 S65536x1 S65536x2048 where
  updateWindowDims := [1]
  insertedWindowDims := [0]
  scatterDimsToOperandDims := [0]
  indexVectorDim := 1
  wf := scatter_S8000x2048_S65536x1_S65536x2048_1_0_0_1_wf
def scatter_S8000_S65536x1_S65536_n_0_0_1 : ScatterDims S8000 S65536x1 S65536 where
  updateWindowDims := []
  insertedWindowDims := [0]
  scatterDimsToOperandDims := [0]
  indexVectorDim := 1
  wf := scatter_S8000_S65536x1_S65536_n_0_0_1_wf
def dot_S256x2048_S1024x2048_S256x1024_1_1_0_0_n_n : DotDims S256x2048 S1024x2048 S256x1024 where
  lhsContracting := [1]
  rhsContracting := [1]
  lhsNonContracting := [0]
  rhsNonContracting := [0]
  lhsBatch := []
  rhsBatch := []
  wf := dot_S256x2048_S1024x2048_S256x1024_1_1_0_0_n_n_wf
def gather_S65536_S256x1_S256_n_0_n_n_0_1_1 : GatherDims S65536 S256x1 S256 where
  offsetDims := []
  collapsedSliceDims := [0]
  operandBatchingDims := []
  startIndicesBatchingDims := []
  startIndexMap := [0]
  indexVectorDim := 1
  sliceSizes := ![1]
  wf := gather_S65536_S256x1_S256_n_0_n_n_0_1_1_wf
def gather_S256x8192_S256x2_S256_n_01_n_n_01_1_11 : GatherDims S256x8192 S256x2 S256 where
  offsetDims := []
  collapsedSliceDims := [0, 1]
  operandBatchingDims := []
  startIndicesBatchingDims := []
  startIndexMap := [0, 1]
  indexVectorDim := 1
  sliceSizes := ![1, 1]
  wf := gather_S256x8192_S256x2_S256_n_01_n_n_01_1_11_wf

abbrev win0_0 : Pipeline.Window sig grid0 :=
  Pipeline.Window.ofSpec (Memref.whole main_v3) S256x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S256x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x2048 : Shape := ⟨2, ![256, 2048]⟩
abbrev S256 : Shape := ⟨1, ![256]⟩
abbrev S65536x2048 : Shape := ⟨2, ![65536, 2048]⟩
abbrev S65536 : Shape := ⟨1, ![65536]⟩
abbrev S_ : Shape := ⟨0, ![]⟩
abbrev S256x1 : Shape := ⟨2, ![256, 1]⟩
abbrev S2048x65536 : Shape := ⟨2, ![2048, 65536]⟩
abbrev S256x65536 : Shape := ⟨2, ![256, 65536]⟩
abbrev S65536x256 : Shape := ⟨2, ![65536, 256]⟩
abbrev S8000x256 : Shape := ⟨2, ![8000, 256]⟩
abbrev S65536x1 : Shape := ⟨2, ![65536, 1]⟩
abbrev S8000 : Shape := ⟨1, ![8000]⟩
abbrev S8000x1 : Shape := ⟨2, ![8000, 1]⟩
abbrev S256x8000 : Shape := ⟨2, ![256, 8000]⟩
abbrev S1x8000 : Shape := ⟨2, ![1, 8000]⟩
abbrev S256x2 : Shape := ⟨2, ![256, 2]⟩

abbrev nBuf : Space → Nat
  | .hbm => 88
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256, .i32⟩
  | .hbm, ⟨2, _⟩ => ⟨S65536x2048, .f32⟩
  | .hbm, ⟨3, _⟩ => ⟨S65536, .i32⟩
  | .hbm, ⟨4, _⟩ => ⟨S256x2048, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S256x1, .f32⟩
  | .hbm, ⟨9, _⟩ => ⟨S256x2048, .f32⟩
  | .hbm, ⟨10, _⟩ => ⟨S256x2048, .f32⟩
  | .hbm, ⟨11, _⟩ => ⟨S2048x65536, .f32⟩
  | .hbm, ⟨12, _⟩ => ⟨S256x65536, .f32⟩
  | .hbm, ⟨13, _⟩ => ⟨S_, .f32⟩
  | .hbm, ⟨14, _⟩ => ⟨S256x65536, .f32⟩
  | .hbm, ⟨15, _⟩ => ⟨S256x65536, .f32⟩
  | .hbm, ⟨16, _⟩ => ⟨S65536x256, .f32⟩
  | .hbm, ⟨17, _⟩ => ⟨S_, .f32⟩
  | .hbm, ⟨18, _⟩ => ⟨S8000x256, .f32⟩
  | .hbm, ⟨19, _⟩ => ⟨S65536x1, .i32⟩
  | .hbm, ⟨20, _⟩ => ⟨S8000x256, .f32⟩
  | .hbm, ⟨21, _⟩ => ⟨S_, .f32⟩
  | .hbm, ⟨22, _⟩ => ⟨S65536, .f32⟩
  | .hbm, ⟨23, _⟩ => ⟨S_, .f32⟩
  | .hbm, ⟨24, _⟩ => ⟨S8000, .f32⟩
  | .hbm, ⟨25, _⟩ => ⟨S65536x1, .i32⟩
  | .hbm, ⟨26, _⟩ => ⟨S8000, .f32⟩
  | .hbm, ⟨27, _⟩ => ⟨S_, .f32⟩
  | .hbm, ⟨28, _⟩ => ⟨S8000, .f32⟩
  | .hbm, ⟨29, _⟩ => ⟨S8000, .i1⟩
  | .hbm, ⟨30, _⟩ => ⟨S_, .f32⟩
  | .hbm, ⟨31, _⟩ => ⟨S_, .f32⟩
  | .hbm, ⟨32, _⟩ => ⟨S8000, .f32⟩
  | .hbm, ⟨33, _⟩ => ⟨S8000, .f32⟩
  | .hbm, ⟨34, _⟩ => ⟨S8000x1, .f32⟩
  | .hbm, ⟨35, _⟩ => ⟨S8000x256, .f32⟩
  | .hbm, ⟨36, _⟩ => ⟨S8000x256, .f32⟩
  | .hbm, ⟨37, _⟩ => ⟨S256x8000, .f32⟩
  | .hbm, ⟨38, _⟩ => ⟨S256x8000, .f32⟩
  | .hbm, ⟨39, _⟩ => ⟨S1x8000, .i1⟩
  | .hbm, ⟨40, _⟩ => ⟨S1x8000, .f32⟩
  | .hbm, ⟨41, _⟩ => ⟨S256x8000, .f32⟩
  | .hbm, ⟨42, _⟩ => ⟨S256x8000, .f32⟩
  | .hbm, ⟨43, _⟩ => ⟨S_, .f32⟩
  | .hbm, ⟨44, _⟩ => ⟨S256, .f32⟩
  | .hbm, ⟨45, _⟩ => ⟨S256x1, .f32⟩
  | .hbm, ⟨46, _⟩ => ⟨S_, .f32⟩
  | .hbm, ⟨47, _⟩ => ⟨S256x1, .f32⟩
  | .hbm, ⟨48, _⟩ => ⟨S256x1, .f32⟩
  | .hbm, ⟨49, _⟩ => ⟨S256x8000, .f32⟩
  | .hbm, ⟨50, _⟩ => ⟨S256x8000, .f32⟩
  | .hbm, ⟨51, _⟩ => ⟨S_, .i32⟩
  | .hbm, ⟨52, _⟩ => ⟨S256, .i32⟩
  | .hbm, ⟨53, _⟩ => ⟨S256, .i1⟩
  | .hbm, ⟨54, _⟩ => ⟨S_, .i32⟩
  | .hbm, ⟨55, _⟩ => ⟨S256, .i32⟩
  | .hbm, ⟨56, _⟩ => ⟨S256, .i32⟩
  | .hbm, ⟨57, _⟩ => ⟨S256, .i32⟩
  | .hbm, ⟨58, _⟩ => ⟨S256x1, .i32⟩
  | .hbm, ⟨59, _⟩ => ⟨S256, .i32⟩
  | .hbm, ⟨60, _⟩ => ⟨S_, .f32⟩
  | .hbm, ⟨61, _⟩ => ⟨S256x8000, .f32⟩
  | .hbm, ⟨62, _⟩ => ⟨S256x8000, .f32⟩
  | .hbm, ⟨63, _⟩ => ⟨S256x8000, .f32⟩
  | .hbm, ⟨64, _⟩ => ⟨S256, .i32⟩
  | .hbm, ⟨65, _⟩ => ⟨S_, .i32⟩
  | .hbm, ⟨66, _⟩ => ⟨S256, .i32⟩
  | .hbm, ⟨67, _⟩ => ⟨S256, .i1⟩
  | .hbm, ⟨68, _⟩ => ⟨S_, .i32⟩
  | .hbm, ⟨69, _⟩ => ⟨S256, .i32⟩
  | .hbm, ⟨70, _⟩ => ⟨S256, .i32⟩
  | .hbm, ⟨71, _⟩ => ⟨S256, .i32⟩
  | .hbm, ⟨72, _⟩ => ⟨S_, .i32⟩
  | .hbm, ⟨73, _⟩ => ⟨S256, .i32⟩
  | .hbm, ⟨74, _⟩ => ⟨S256, .i1⟩
  | .hbm, ⟨75, _⟩ => ⟨S_, .i32⟩
  | .hbm, ⟨76, _⟩ => ⟨S256, .i32⟩
  | .hbm, ⟨77, _⟩ => ⟨S256, .i32⟩
  | .hbm, ⟨78, _⟩ => ⟨S256, .i32⟩
  | .hbm, ⟨79, _⟩ => ⟨S256x1, .i32⟩
  | .hbm, ⟨80, _⟩ => ⟨S256x1, .i32⟩
  | .hbm, ⟨81, _⟩ => ⟨S256x2, .i32⟩
  | .hbm, ⟨82, _⟩ => ⟨S256, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_call1_v0 : Ref sig .tc := ⟨.hbm, 31, rfl⟩
abbrev main_call1_v1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_9 : Ref sig .tc := ⟨.hbm, 65, rfl⟩
abbrev main_v44 : Ref sig .tc := ⟨.hbm, 66, rfl⟩
abbrev main_v45 : Ref sig .tc := ⟨.hbm, 67, rfl⟩
abbrev main_c_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_11 : Ref sig .tc := ⟨.hbm, 72, rfl⟩
abbrev main_v49 : Ref sig .tc := ⟨.hbm, 73, rfl⟩
abbrev main_v50 : Ref sig .tc := ⟨.hbm, 74, rfl⟩
abbrev main_c_12 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_13 : Ref sig .tc := ⟨.hbm, 83, rfl⟩
abbrev main_v58 : Ref sig .tc := ⟨.hbm, 84, rfl⟩
abbrev main_cst_14 : Ref sig .tc := ⟨.hbm, 85, rfl⟩
abbrev main_v59 : Ref sig .tc := ⟨.hbm, 86, rfl⟩
abbrev main_v60 : Ref sig .tc := ⟨.hbm, 87, rfl⟩

abbrev nD : Nat := 1
abbrev τ : Topo := Topo.v7x

variable {F : FTy → Type} [FloatOps F]

class Facts₀ : Prop where
  reducesTo_S256x2048_S256_d1 : S256x2048.ReducesTo [1] S256
  h_S_ : 0 < S_.numel
  bcast_S256_S256x1_0 : S256.BroadcastsInDim S256x1 (![0] : Fin 1 → Fin S256x1.rank)
  bcast_S256x1_S256x2048_0_1 : S256x1.BroadcastsInDim S256x2048 (![0, 1] : Fin 2 → Fin S256x2048.rank)
  transposes_S65536x2048_S2048x65536_1_0 : S65536x2048.Transposes [1, 0] S2048x65536
  bcast_S_S256x65536 : S_.BroadcastsInDim S256x65536 (![] : Fin 0 → Fin S256x65536.rank)
  transposes_S256x65536_S65536x256_1_0 : S256x65536.Transposes [1, 0] S65536x256
  bcast_S_S8000x256 : S_.BroadcastsInDim S8000x256 (![] : Fin 0 → Fin S8000x256.rank)
  bcast_S65536_S65536x1_0 : S65536.BroadcastsInDim S65536x1 (![0] : Fin 1 → Fin S65536x1.rank)
  bcast_S_S65536 : S_.BroadcastsInDim S65536 (![] : Fin 0 → Fin S65536.rank)
  bcast_S_S8000 : S_.BroadcastsInDim S8000 (![] : Fin 0 → Fin S8000.rank)
  bcast_S8000_S8000x1_0 : S8000.BroadcastsInDim S8000x1 (![0] : Fin 1 → Fin S8000x1.rank)
  bcast_S8000x1_S8000x256_0_1 : S8000x1.BroadcastsInDim S8000x256 (![0, 1] : Fin 2 → Fin S8000x256.rank)
  transposes_S8000x256_S256x8000_1_0 : S8000x256.Transposes [1, 0] S256x8000
  bcast_S8000_S1x8000_1 : S8000.BroadcastsInDim S1x8000 (![1] : Fin 1 → Fin S1x8000.rank)
  bcast_S1x8000_S256x8000_0_1 : S1x8000.BroadcastsInDim S256x8000 (![0, 1] : Fin 2 → Fin S256x8000.rank)
  reducesTo_S256x8000_S256_d1 : S256x8000.ReducesTo [1] S256
  bcast_S_S256x1 : S_.BroadcastsInDim S256x1 (![] : Fin 0 → Fin S256x1.rank)
  bcast_S256x1_S256x8000_0_1 : S256x1.BroadcastsInDim S256x8000 (![0, 1] : Fin 2 → Fin S256x8000.rank)
  bcast_S_S256 : S_.BroadcastsInDim S256 (![] : Fin 0 → Fin S256.rank)
  bcast_S_S256x8000 : S_.BroadcastsInDim S256x8000 (![] : Fin 0 → Fin S256x8000.rank)
  concatenates_S256x1_S256x1_S256x2_d1 : Shape.Concatenates [S256x1, S256x1] S256x2 1
  reducesTo_S256_S_d0 : S256.ReducesTo [0] S_
  dot_S256x2048_S2048x65536_S256x65536_1_0_0_1_n_n_wf : DotDims.WF S256x2048 S2048x65536 S256x65536 [1] [0] [0] [1] [] []
  scatter_S8000x256_S65536x1_S65536x256_1_0_0_1_wf : ScatterDims.WF S8000x256 S65536x1 S65536x256 [1] [0] [0] 1
  scatter_S8000_S65536x1_S65536_n_0_0_1_wf : ScatterDims.WF S8000 S65536x1 S65536 [] [0] [0] 1
  gather_S65536_S256x1_S256_n_0_n_n_0_1_1_wf : GatherDims.WF S65536 S256x1 S256 [] [0] [] [0] [] 1 ![1]
  gather_S256x8000_S256x2_S256_n_01_n_n_01_1_11_wf : GatherDims.WF S256x8000 S256x2 S256 [] [0, 1] [] [0, 1] [] 1 ![1, 1]

variable [Facts₀]

def dot_S256x2048_S2048x65536_S256x65536_1_0_0_1_n_n : DotDims S256x2048 S2048x65536 S256x65536 where
  lhsContracting := [1]
  rhsContracting := [0]
  lhsNonContracting := [0]
  rhsNonContracting := [1]
  lhsBatch := []
  rhsBatch := []
  wf := dot_S256x2048_S2048x65536_S256x65536_1_0_0_1_n_n_wf
def scatter_S8000x256_S65536x1_S65536x256_1_0_0_1 : ScatterDims S8000x256 S65536x1 S65536x256 where
  updateWindowDims := [1]
  insertedWindowDims := [0]
  scatterDimsToOperandDims := [0]
  indexVectorDim := 1
  wf := scatter_S8000x256_S65536x1_S65536x256_1_0_0_1_wf
def scatter_S8000_S65536x1_S65536_n_0_0_1 : ScatterDims S8000 S65536x1 S65536 where
  updateWindowDims := []
  insertedWindowDims := [0]
  scatterDimsToOperandDims := [0]
  indexVectorDim := 1
  wf := scatter_S8000_S65536x1_S65536_n_0_0_1_wf
def gather_S65536_S256x1_S256_n_0_n_n_0_1_1 : GatherDims S65536 S256x1 S256 where
  offsetDims := []
  collapsedSliceDims := [0]
  operandBatchingDims := []
  startIndicesBatchingDims := []
  startIndexMap := [0]
  indexVectorDim := 1
  sliceSizes := ![1]
  wf := gather_S65536_S256x1_S256_n_0_n_n_0_1_1_wf
def gather_S256x8000_S256x2_S256_n_01_n_n_01_1_11 : GatherDims S256x8000 S256x2 S256 where
  offsetDims := []
  collapsedSliceDims := [0, 1]
  operandBatchingDims := []
  startIndicesBatchingDims := []
  startIndexMap := [0, 1]
  indexVectorDim := 1
  sliceSizes := ![1, 1]
  wf := gather_S256x8000_S256x2_S256_n_01_n_n_01_1_11_wf

class Facts : Prop extends Facts₀ where

variable [Facts]
-- ==== Proof.KernelHost.lean ====
/-
  What the kernel's host program holds in each buffer the region and the closing lines read, as functions of the argument
  arrays.

  Before the region the host normalises every row of the batch by its Euclidean norm (the row divided by the square root of
  its sum of squares), adds up the memory rows cluster by cluster (a scatter-add of whole rows at the label column into a
  table of zeros), counts each cluster's rows (the same scatter-add of ones), pads both tables with 192 empty clusters,
  and marks the clusters whose count is positive. Each of these is one function below; the region's two inputs are the
  normalised rows and the padded cluster sums in the matrix unit's input format.
-/
import proofs.«164942_j8186207666549_2_alg».proof.Proof.Gen.KernelIdeal.Frame
import Idealize.ShloMosaic.Lib.StableHlo.Run

set_option maxRecDepth 16384

noncomputable section

namespace Cert.KernelIdeal.HostValue

open Cert.KernelIdeal Cert.KernelIdeal.Gen Idealize.ShloMosaic Idealize.ShloMosaic.TcCoe Idealize.SL.Sem Idealize.ShloMosaic.StableHlo

variable {F : FTy → Type} [FloatOps F] [Named F]

/-- Each batch row's sum of squares. -/
def sumSq (R : (⟨S256x2048, .f32⟩ : BufTy).Contents (Elt F)) : (⟨S256, .f32⟩ : BufTy).Contents (Elt F) :=
  Host.reduceAdd (mulf R R) (constant (F := F) S_ .f32 0x00000000#32) reducesTo_S256x2048_S256_d1 h_S_

/-- The batch rows divided by their norms. -/
def unitRows (R : (⟨S256x2048, .f32⟩ : BufTy).Contents (Elt F)) : (⟨S256x2048, .f32⟩ : BufTy).Contents (Elt F) :=
  Host.divf R (broadcastInDim S256x2048 ![0, 1] bcast_S256x1_S256x2048_0_1
    (Host.sqrt (broadcastInDim S256x1 ![0] bcast_S256_S256x1_0 (sumSq R))))

/-- The same in the matrix unit's input format. -/
def unitRowsIn (R : (⟨S256x2048, .f32⟩ : BufTy).Contents (Elt F)) : (⟨S256x2048, .bf16⟩ : BufTy).Contents (Elt F) :=
  truncf .bf16 (unitRows R) bitsLt_bf16_f32

/-- The labels as a column of row numbers. -/
def labelCol (L : (⟨S65536, .i32⟩ : BufTy).Contents (Elt F)) : (⟨S65536x1, .i32⟩ : BufTy).Contents (Elt F) :=
  broadcastInDim S65536x1 ![0] bcast_S65536_S65536x1_0 L

/-- The memory rows added up cluster by cluster. -/
def clusterSums (Fe : (⟨S65536x2048, .f32⟩ : BufTy).Contents (Elt F)) (L : (⟨S65536, .i32⟩ : BufTy).Contents (Elt F)) :
    (⟨S8000x2048, .f32⟩ : BufTy).Contents (Elt F) :=
  Host.scatterAdd scatter_S8000x2048_S65536x1_S65536x2048_1_0_0_1
    (broadcastInDim S8000x2048 ![] bcast_S_S8000x2048 (constant (F := F) S_ .f32 0x00000000#32)) (labelCol (F := F) L) Fe

/-- The cluster sums padded with 192 empty clusters, in the matrix unit's input format. -/
def clusterSumsIn (Fe : (⟨S65536x2048, .f32⟩ : BufTy).Contents (Elt F)) (L : (⟨S65536, .i32⟩ : BufTy).Contents (Elt F)) :
    (⟨S8192x2048, .bf16⟩ : BufTy).Contents (Elt F) :=
  truncf .bf16 (pad S8192x2048 ![0, 0] ![192, 0] ![0, 0] (clusterSums Fe L) (sitofp (F := F) .f32 (constantI S_ 32 0#32))
    pads_S8000x2048_S8192x2048_01920_000 h_S_) bitsLt_bf16_f32

/-- Each cluster's number of memory rows. -/
def counts (L : (⟨S65536, .i32⟩ : BufTy).Contents (Elt F)) : (⟨S8000, .f32⟩ : BufTy).Contents (Elt F) :=
  Host.scatterAdd scatter_S8000_S65536x1_S65536_n_0_0_1
    (broadcastInDim S8000 ![] bcast_S_S8000 (constant (F := F) S_ .f32 0x00000000#32)) (labelCol (F := F) L)
    (broadcastInDim S65536 ![] bcast_S_S65536 (constant (F := F) S_ .f32 0x3F800000#32))

/-- The counts padded with 192 empty clusters. -/
def countsP (L : (⟨S65536, .i32⟩ : BufTy).Contents (Elt F)) : (⟨S8192, .f32⟩ : BufTy).Contents (Elt F) :=
  pad S8192 ![0] ![192] ![0] (counts (F := F) L) (sitofp (F := F) .f32 (constantI S_ 32 0#32)) pads_S8000_S8192_01920 h_S_

/-- The clusters that have a memory row. -/
def populated (L : (⟨S65536, .i32⟩ : BufTy).Contents (Elt F)) : (⟨S8192, .i1⟩ : BufTy).Contents (Elt F) :=
  cmpf (F := F) .ogt (countsP (F := F) L) (broadcastInDim S8192 ![] bcast_S_S8192 (constant (F := F) S_ .f32 0x00000000#32))

variable (m : (ℓ : Loc nD τ sig) → Buf (Elt F) ℓ)

/-- The region's first input holds the normalised batch rows. -/
theorem V_main_v3 (c : Dev nD) :
    (V m c main_v3 : (⟨S256x2048, .bf16⟩ : BufTy).Contents (Elt F)) = unitRowsIn (m ((c : Thread nD τ).loc main_arg0)) := by
  dsimp only [V, V0]
  simp only [hostOps0, hostOps0_1, hostOps0_2, hostOps0_3, hostOps0_4, hostOps0_5, List.flatten_cons, List.flatten_nil,
    List.append_nil, List.cons_append, List.nil_append]
  after_results
  rfl

/-- The region's second input holds the padded cluster sums. -/
theorem V_main_v13 (c : Dev nD) :
    (V m c main_v13 : (⟨S8192x2048, .bf16⟩ : BufTy).Contents (Elt F))
      = clusterSumsIn (m ((c : Thread nD τ).loc main_arg2)) (m ((c : Thread nD τ).loc main_arg3)) := by
  dsimp only [V, V0]
  simp only [hostOps0, hostOps0_1, hostOps0_2, hostOps0_3, hostOps0_4, hostOps0_5, List.flatten_cons, List.flatten_nil,
    List.append_nil, List.cons_append, List.nil_append]
  after_results
  rfl

/-- The padded counts. -/
theorem V_main_v12 (c : Dev nD) :
    (V m c main_v12 : (⟨S8192, .f32⟩ : BufTy).Contents (Elt F)) = countsP (F := F) (m ((c : Thread nD τ).loc main_arg3)) := by
  dsimp only [V, V0]
  simp only [hostOps0, hostOps0_1, hostOps0_2, hostOps0_3, hostOps0_4, hostOps0_5, List.flatten_cons, List.flatten_nil,
    List.append_nil, List.cons_append, List.nil_append]
  after_results
  rfl

/-- The populated clusters. -/
theorem V_main_v15 (c : Dev nD) :
    (V m c main_v15 : (⟨S8192, .i1⟩ : BufTy).Contents (Elt F)) = populated (F := F) (m ((c : Thread nD τ).loc main_arg3)) := by
  dsimp only [V, V0]
  simp only [hostOps0, hostOps0_1, hostOps0_2, hostOps0_3, hostOps0_4, hostOps0_5, List.flatten_cons, List.flatten_nil,
    List.append_nil, List.cons_append, List.nil_append]
  after_results
  rfl

end Cert.KernelIdeal.HostValue

end
-- ==== Proof.KernelTail.lean ====
/-
  The kernel program's closing lines as functions of the logits table the region wrote, the padded counts, the populated-
  cluster mask, the sample indices and the labels.

  After the region the host divides each cluster's logit by the cluster's count (by 1 for an empty cluster: the per-cluster
  mean), exponentiates, zeroes the empty clusters, normalises each row by its sum plus a small constant, takes the logarithm
  of that plus a small constant, picks in each row the entry of the sample's own cluster (the label of the memory row the
  sample's index names), and returns minus the mean of the picked entries.
-/
import proofs.«164942_j8186207666549_2_alg».proof.Proof.Gen.KernelIdeal.Frame
import Idealize.ShloMosaic.Lib.StableHlo.Run
import Idealize.ShloMosaic.Lib.Pipeline.FrameSuffix

set_option maxRecDepth 16384

noncomputable section

namespace Cert.KernelIdeal.TailValue

open Cert.KernelIdeal Cert.KernelIdeal.Gen Idealize.ShloMosaic Idealize.ShloMosaic.TcCoe Idealize.SL.Sem Idealize.ShloMosaic.StableHlo

variable {F : FTy → Type} [FloatOps F] [Named F]

/-- The per-cluster divisor: the count where the cluster is populated, 1 where it is empty. -/
def divisor (n : (⟨S8192, .f32⟩ : BufTy).Contents (Elt F)) (p : (⟨S8192, .i1⟩ : BufTy).Contents (Elt F)) :
    (⟨S8192, .f32⟩ : BufTy).Contents (Elt F) :=
  select p n (broadcastInDim S8192 ![] bcast_S_S8192 (id (constant (F := F) S_ .f32 0x3F800000#32)))

/-- The masked exponentials of the per-cluster means. -/
def weights (a : (⟨S256x8192, .f32⟩ : BufTy).Contents (Elt F)) (n : (⟨S8192, .f32⟩ : BufTy).Contents (Elt F))
    (p : (⟨S8192, .i1⟩ : BufTy).Contents (Elt F)) : (⟨S256x8192, .f32⟩ : BufTy).Contents (Elt F) :=
  mulf (Host.exp (Host.divf a (broadcastInDim S256x8192 ![0, 1] bcast_S1x8192_S256x8192_0_1
      (broadcastInDim S1x8192 ![1] bcast_S8192_S1x8192_1 (divisor n p)))))
    (broadcastInDim S256x8192 ![0, 1] bcast_S1x8192_S256x8192_0_1
      (uitofp (F := F) .f32 (broadcastInDim S1x8192 ![1] bcast_S8192_S1x8192_1 p)))

/-- Each row's normaliser: the sum of its weights plus a small constant, as a column. -/
def normaliser (e : (⟨S256x8192, .f32⟩ : BufTy).Contents (Elt F)) : (⟨S256x1, .f32⟩ : BufTy).Contents (Elt F) :=
  addf (broadcastInDim S256x1 ![0] bcast_S256_S256x1_0
      (Host.reduceAdd e (constant (F := F) S_ .f32 0x00000000#32) reducesTo_S256x8192_S256_d1 h_S_))
    (broadcastInDim S256x1 ![] bcast_S_S256x1 (constant (F := F) S_ .f32 0x358637BD#32))

/-- The logarithm of each cluster's probability (plus a small constant). -/
def logProbs (a : (⟨S256x8192, .f32⟩ : BufTy).Contents (Elt F)) (n : (⟨S8192, .f32⟩ : BufTy).Contents (Elt F))
    (p : (⟨S8192, .i1⟩ : BufTy).Contents (Elt F)) : (⟨S256x8192, .f32⟩ : BufTy).Contents (Elt F) :=
  Host.log (addf (Host.divf (weights a n p) (broadcastInDim S256x8192 ![0, 1] bcast_S256x1_S256x8192_0_1 (normaliser (weights a n p))))
    (broadcastInDim S256x8192 ![] bcast_S_S256x8192 (constant (F := F) S_ .f32 0x358637BD#32)))

/-- Each sample's own cluster: the label of the memory row its index names (a negative index counted from the end). -/
def targets (I : (⟨S256, .i32⟩ : BufTy).Contents (Elt F)) (L : (⟨S65536, .i32⟩ : BufTy).Contents (Elt F)) :
    (⟨S256, .i32⟩ : BufTy).Contents (Elt F) :=
  Host.gather gather_S65536_S256x1_S256_n_0_n_n_0_1_1 L
    (broadcastInDim S256x1 ![0] bcast_S256_S256x1_0
      (select (cmpi .slt I (broadcastInDim S256 ![] bcast_S_S256 (constantI S_ 32 0#32)))
        (addi I (broadcastInDim S256 ![] bcast_S_S256 (constantI S_ 32 65536#32))) I))

/-- The row numbers 0 … 255 (a negative one counted from the end). -/
def rowIds : (⟨S256, .i32⟩ : BufTy).Contents (Elt F) :=
  select (cmpi .slt (iotaInDim S256 32 0) (broadcastInDim S256 ![] bcast_S_S256 (constantI S_ 32 0#32)))
    (addi (iotaInDim S256 32 0) (broadcastInDim S256 ![] bcast_S_S256 (constantI S_ 32 256#32))) (iotaInDim S256 32 0)

/-- The (row, column) pairs at which the log-probabilities are picked; a negative column is counted from the table's end. -/
def pickAt (t : (⟨S256, .i32⟩ : BufTy).Contents (Elt F)) : (⟨S256x2, .i32⟩ : BufTy).Contents (Elt F) :=
  concatenate S256x2 1
    [⟨S256x1, broadcastInDim S256x1 ![0] bcast_S256_S256x1_0 (rowIds (F := F))⟩,
     ⟨S256x1, broadcastInDim S256x1 ![0] bcast_S256_S256x1_0
        (select (cmpi .slt t (broadcastInDim S256 ![] bcast_S_S256 (constantI S_ 32 0#32)))
          (addi t (broadcastInDim S256 ![] bcast_S_S256 (constantI S_ 32 8192#32))) t)⟩]
    concatenates_S256x1_S256x1_S256x2_d1

/-- The picked log-probabilities, one per sample. -/
def picked (lp : (⟨S256x8192, .f32⟩ : BufTy).Contents (Elt F)) (t : (⟨S256, .i32⟩ : BufTy).Contents (Elt F)) :
    (⟨S256, .f32⟩ : BufTy).Contents (Elt F) :=
  Host.gather gather_S256x8192_S256x2_S256_n_01_n_n_01_1_11 lp (pickAt (F := F) t)

/-- Minus the mean of a vector of 256 entries. -/
def negMean (g : (⟨S256, .f32⟩ : BufTy).Contents (Elt F)) : (⟨S_, .f32⟩ : BufTy).Contents (Elt F) :=
  Host.negf (Host.divf (Host.reduceAdd g (constant (F := F) S_ .f32 0x00000000#32) reducesTo_S256_S_d0 h_S_)
    (constant (F := F) S_ .f32 0x43800000#32))

/-- The loss. -/
def loss (a : (⟨S256x8192, .f32⟩ : BufTy).Contents (Elt F)) (n : (⟨S8192, .f32⟩ : BufTy).Contents (Elt F))
    (p : (⟨S8192, .i1⟩ : BufTy).Contents (Elt F)) (I : (⟨S256, .i32⟩ : BufTy).Contents (Elt F))
    (L : (⟨S65536, .i32⟩ : BufTy).Contents (Elt F)) : (⟨S_, .f32⟩ : BufTy).Contents (Elt F) :=
  negMean (picked (logProbs a n p) (targets (F := F) I L))

set_option maxHeartbeats 8000000 in
/-- The closing lines, run over any contents, leave the loss of what they read in the result buffer. -/
theorem tail_of (W : Valuation τ sig (Elt F)) :
    StableHlo.after (List.flatten [hostOps1, hostOps1_1, hostOps1_2]) W (Proc.devRef .tc main_v59)
      = loss (F := F) (W (Proc.devRef .tc main_v16)) (W (Proc.devRef .tc main_v12)) (W (Proc.devRef .tc main_v15))
          (W (Proc.devRef .tc main_arg1)) (W (Proc.devRef .tc main_arg3)) := by
  simp only [hostOps1, hostOps1_1, hostOps1_2, List.flatten_cons, List.flatten_nil, List.append_nil, List.cons_append, List.nil_append]
  after_results_simp
  unfold loss negMean picked logProbs normaliser weights divisor targets pickAt rowIds
  rfl

end Cert.KernelIdeal.TailValue

end
-- ==== Proof.LibMatmul.lean ====
/-
  A matrix product read at an entry.

  At the exact instance a matrix-unit product into a zero accumulator is, entry by entry, the textbook contraction:
  for an M x K left operand and a K x N right operand, entry (p, q) is the sum over k of lhs(p, k) * rhs(k, q)
  (`matmul_zero_plain_apply`); when the right operand is given as N x K and contracted along its second axis
  (a product with the transpose), entry (p, q) is the sum over k of lhs(p, k) * rhs(q, k) (`matmul_zero_nt_apply`).
  The dimension records are the ones with exactly those contracting and free axes and no batch axis.
-/
import Idealize.ShloMosaic.PureOps.Ideal.Laws
import Idealize.ShloMosaic.Lib.ValueIdx

noncomputable section

namespace Cert.MatmulAt

open Idealize.ShloMosaic Idealize.ShloMosaic.ValueIdx

/-- Rows times columns: contract the left operand's second axis with the right operand's first. -/
abbrev plainDims {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- Rows times rows: contract the second axis of both operands. -/
abbrev ntDims {M K N : ℕ} (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

theorem matmul_zero_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    matmul (plainDims wf) prec lhs rhs (constant (F := Ideal) ⟨2, ![M, N]⟩ .f32 0x00000000#32) (ix2 p q)
      = ∑ k : Fin K, lhs (ix2 p k) * rhs (ix2 k q) := by
  simp only [matmul]
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((plainDims wf).lhsIdx_val_of_single rfl _ _).trans hk)
  have er : (plainDims wf).rhsIdx (ix2 p q) ((contrEquiv1 (plainDims wf) K rfl rfl).symm k) = ix2 k q :=
    funext fun a => Fin.ext (by
      match a with
      | ⟨0, _⟩ => exact ((plainDims wf).rhsIdx_val_of_single rfl _ _).trans hk
      | ⟨1, _⟩ =>
        unfold DotDims.rhsIdx
        split
        · rename_i hb; exact absurd hb List.not_mem_nil
        · split
          · rfl
          · rename_i hn; exact absurd (List.mem_singleton_self _) hn)
  rw [el, er]

theorem matmul_zero_nt_apply {M K N : ℕ} {φ₁ φ₂ : FTy}
    (wf : DotDims.WF ⟨2, ![M, K]⟩ ⟨2, ![N, K]⟩ ⟨2, ![M, N]⟩ [1] [1] [0] [0] [] [])
    (prec : Option ContractPrecision)
    (lhs : FVec Ideal ⟨2, ![M, K]⟩ φ₁) (rhs : FVec Ideal ⟨2, ![N, K]⟩ φ₂) (p : Fin M) (q : Fin N) :
    matmul (ntDims wf) prec lhs rhs (constant (F := Ideal) ⟨2, ![M, N]⟩ .f32 0x00000000#32) (ix2 p q)
      = ∑ k : Fin K, lhs (ix2 p k) * rhs (ix2 q k) := by
  simp only [matmul]
  rw [Ideal.matmul_constant_zero_apply, ← Equiv.sum_comp (contrEquiv1 (ntDims wf) K rfl rfl).symm]
  refine Finset.sum_congr rfl fun k _ => ?_
  have hk := contrEquiv1_symm_val (ntDims wf) K rfl rfl k
  have el : (ntDims wf).lhsIdx (ix2 p q) ((contrEquiv1 (ntDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((ntDims wf).lhsIdx_val_of_single rfl _ _).trans hk)
  have er : (ntDims wf).rhsIdx (ix2 p q) ((contrEquiv1 (ntDims wf) K rfl rfl).symm k) = ix2 q k :=
    funext fun a => Fin.ext (by
      match a with
      | ⟨0, _⟩ =>
        unfold DotDims.rhsIdx
        split
        · rename_i hb; exact absurd hb List.not_mem_nil
        · split
          · rfl
          · rename_i hn; exact absurd (List.mem_singleton_self _) hn
      | ⟨1, _⟩ => exact ((ntDims wf).rhsIdx_val_of_single rfl _ _).trans hk)
  rw [el, er]

end Cert.MatmulAt

end
-- ==== Proof.KernelRegion.lean ====
/-
  The logits table the kernel's region writes.

  The region runs over 8 grid points. At point t the body sees the whole normalised batch (256 x 2048), rows
  1024 t … 1024 t + 1023 of the padded cluster sums (1024 x 2048), and writes columns 1024 t … 1024 t + 1023 of the
  256 x 8192 output: the matrix product of the batch with the transposed block, every entry times the scale. So entry
  (b, c) of the output is  (sum over k of x(b, k) y(c, k)) * scale,  where the scale is the constant named inv_temp: the
  reciprocal of the reference's temperature word. The eight column blocks tile the output, so this holds at every entry.
-/
import proofs.«164942_j8186207666549_2_alg».proof.Proof.Gen.KernelIdeal.Frame
import proofs.«164942_j8186207666549_2_alg».proof.Proof.LibMatmul
import Idealize.ShloMosaic.Lib.Pipeline.Value
import Idealize.ShloMosaic.Lib.ValueIdx
import Idealize.ShloMosaic.PureOps.Ideal.Laws
import Idealize.ShloMosaic.PureOps.IdealRules

set_option maxRecDepth 16384

noncomputable section

namespace Cert.KernelIdeal.Region

open Cert.KernelIdeal Cert.KernelIdeal.Gen Idealize.ShloMosaic Idealize.ShloMosaic.TcCoe Idealize.SL.Sem Idealize.ShloMosaic.ValueIdx
open Idealize.ShloMosaic.Pipeline (Dat)
open scoped BigOperators

/-- The scale the body multiplies by, at the exact instance. -/
def scale : EReal := Named.named (F := Ideal) κ "inv_temp" (φ := .f32) 0x41A00000#32

/-- It is the value the certificate's table gives the name: 2^28 / 13421773. -/
theorem scale_eq : scale = ((268435456 / 13421773 : ℝ) : EReal) :=
  IdealRules.named_const.ideal_named_scalar _ _ _ _ rfl

/-- The logits table as one function of the region's two input arrays. -/
def logits (x : S256x2048.Idx → EReal) (y : S8192x2048.Idx → EReal) : S256x8192.Idx → EReal :=
  fun j => (∑ k : Fin 2048, x (ix2 (j 0) k) * y (ix2 (j 1) k)) * scale

theorem logits_apply (x : S256x2048.Idx → EReal) (y : S8192x2048.Idx → EReal) (b : Fin 256) (c : Fin 8192) :
    logits x y (ix2 b c) = (∑ k : Fin 2048, x (ix2 b k) * y (ix2 c k)) * scale := rfl

/-- The body's stored value at entry (p, q) of its block: the dot product of row p of the batch block with row q of
    the cluster block, times the scale. -/
theorem pay_at (x0 : Vec Ideal S256x2048 .bf16) (x1 : Vec Ideal S1024x2048 .bf16) (p : Fin 256) (q : Fin 1024) :
    k0_pay1 (F := Ideal) x0 x1 (ix2 p q) = (∑ k : Fin 2048, x0 (ix2 p k) * x1 (ix2 q k)) * scale := by
  unfold k0_pay1
  rw [shapeCast_self, shapeCast_self]
  exact congrArg (· * scale)
    (Cert.MatmulAt.matmul_zero_nt_apply dot_S256x2048_S1024x2048_S256x1024_1_1_0_0_n_n_wf none x0 x1 p q)

theorem hz : (![0, 0] : Fin 2 → Nat) = fun _ => 0 := funext fun a => by fin_cases a <;> rfl

/-- The printed index maps over the grid: the batch window stays at block (0, 0), the cluster window is at block
    (t, 0) and the output window at block (0, t). -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val :=
  (by decide +kernel : ∀ t : Fin grid0.N, _)

variable (m : (ℓ : Loc nD τ sig) → Buf (Elt Ideal) ℓ)

/-- What grid point t writes back is block t of the logits table of the two input arrays as the region finds them. -/
theorem flushed_eq (c : Dev nD) (t : Fin cfg0.N) :
    (dats m 0 c).flushed 2 t = ((cfg0.win 2).blk t).view.read (Elt Ideal) (logits (V m c main_v3) (V m c main_v13)) := by
  show (cfg0.win 2).cut (grid0.coords t) ((dats m 0 c).after 2 t) = _
  rw [after0_2]
  unfold out0_2
  rw [View.canon_unit_zero hz]
  simp only [View.ld_unit_zero (S := S256x2048) hz, View.ld_unit_zero (S := S1024x2048) hz]
  obtain ⟨e0, e1, e2, e3, e4, e5⟩ := idx_facts t
  funext j
  obtain ⟨p, q, rfl⟩ : ∃ (p : Fin 256) (q : Fin 1024), j = ix2 p q := ⟨j 0, j 1, eq_ix2 j⟩
  show k0_pay1 (F := Ideal) (iblk m c 0 t) (iblk m c 1 t) (ix2 p q)
    = logits (V m c main_v3) (V m c main_v13) (((cfg0.win 2).blk t).view.emb (ix2 p q))
  refine (pay_at (iblk m c 0 t) (iblk m c 1 t) p q).trans ?_
  refine congrArg (· * scale) (Finset.sum_congr rfl fun k _ => ?_)
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 256 + 1 * p.val = win0_2.index t (0 : Fin 2) * 256 + 1 * p.val; omega
    | ⟨1, _⟩ => show win0_0.index t (1 : Fin 2) * 2048 + 1 * k.val = k.val; omega
  have h1 : ((cfg0.win 1).blk t).view.emb (ix2 q k) = ix2 ((((cfg0.win 2).blk t).view.emb (ix2 p q)) 1) k := by
    funext a; apply Fin.ext
    match a with
    | ⟨0, _⟩ => show win0_1.index t (0 : Fin 2) * 1024 + 1 * q.val = win0_2.index t (1 : Fin 2) * 1024 + 1 * q.val; omega
    | ⟨1, _⟩ => show win0_1.index t (1 : Fin 2) * 2048 + 1 * k.val = k.val; omega
  have a0 : iblk m c 0 t (ix2 p k) = V m c main_v3 (ix2 ((((cfg0.win 2).blk t).view.emb (ix2 p q)) 0) k) := by
    show V m c main_v3 (((cfg0.win 0).blk t).view.emb (ix2 p k)) = _
    exact congrArg (V m c main_v3) h0
  have a1 : iblk m c 1 t (ix2 q k) = V m c main_v13 (ix2 ((((cfg0.win 2).blk t).view.emb (ix2 p q)) 1) k) := by
    show V m c main_v13 (((cfg0.win 1).blk t).view.emb (ix2 q k)) = _
    exact congrArg (V m c main_v13) h1
  rw [a0, a1]

/-- An index of the output is in point t's block iff each coordinate is in the block's range on its axis. -/
theorem mem_blk (t : Fin cfg0.N) (i : S256x8192.Idx) :
    i ∈ ((cfg0.win 2).blk t).view.set ↔ ∀ a : Fin 2, win0_2.index t a * S256x1024.size a ≤ (i a).val
      ∧ (i a).val < win0_2.index t a * S256x1024.size a + S256x1024.size a := by
  show i ∈ ((View.whole main_v16).slice (win0_2.rect t)).set ↔ _
  rw [View.set_slice_whole, Rect.mem_set_unit]
  exact Iff.rfl

/-- Every entry of the output lies in the block of the point that is its column divided by 1024. -/
theorem cover (i : S256x8192.Idx) : ∃ t : Fin cfg0.N, (cfg0.win 2).flush t = true ∧ i ∈ ((cfg0.win 2).blk t).view.set := by
  have hi0 : (i 0).val < 256 := (i 0).isLt
  have hi1 : (i 1).val < 8192 := (i 1).isLt
  have ht : (i 1).val / 1024 < 8 := by omega
  refine ⟨⟨(i 1).val / 1024, ht⟩, flush0_2 _, ?_⟩
  rw [mem_blk]
  obtain ⟨-, -, -, -, e4, e5⟩ := idx_facts ⟨(i 1).val / 1024, ht⟩
  intro a
  match a with
  | ⟨0, _⟩ =>
    show win0_2.index ⟨(i 1).val / 1024, ht⟩ (0 : Fin 2) * 256 ≤ (i 0).val
      ∧ (i 0).val < win0_2.index ⟨(i 1).val / 1024, ht⟩ (0 : Fin 2) * 256 + 256
    rw [e4]; omega
  | ⟨1, _⟩ =>
    show win0_2.index ⟨(i 1).val / 1024, ht⟩ (1 : Fin 2) * 1024 ≤ (i 1).val
      ∧ (i 1).val < win0_2.index ⟨(i 1).val / 1024, ht⟩ (1 : Fin 2) * 1024 + 1024
    rw [e5]
    show (i 1).val / 1024 * 1024 ≤ (i 1).val ∧ (i 1).val < (i 1).val / 1024 * 1024 + 1024
    omega

/-- After the run the output array is the logits table of the region's two input arrays. -/
theorem final (c : Dev nD) : (dats m 0 c).arrAt 2 cfg0.N = logits (V m c main_v3) (V m c main_v13) :=
  (dats m 0 c).arrAt_eq_of_cover 2 (logits (V m c main_v3) (V m c main_v13)) (fun t _ => flushed_eq m c t) cover

end Cert.KernelIdeal.Region

end
-- ==== Proof.KernelValue.lean ====
/-
  What the kernel program leaves in its result buffer, as one function of the argument arrays.

  The frame run states the result as the closing lines applied over the region's output and the buffers the host prepared. The
  closing lines are the loss function of what they read; the region's output is the logits table of its two inputs; and each
  prepared buffer is its function of the arguments. Put together: the result is the loss of the logits table of the normalised
  batch and the padded cluster sums, with the padded counts, the populated mask, the sample indices and the labels.
-/
import proofs.«164942_j8186207666549_2_alg».proof.Proof.KernelHost
import proofs.«164942_j8186207666549_2_alg».proof.Proof.KernelTail
import proofs.«164942_j8186207666549_2_alg».proof.Proof.KernelRegion

set_option maxRecDepth 16384

noncomputable section

namespace Cert.KernelIdeal.Value

open Cert.KernelIdeal Cert.KernelIdeal.Gen Idealize.ShloMosaic Idealize.ShloMosaic.TcCoe Idealize.SL.Sem
open Cert.KernelIdeal.HostValue Cert.KernelIdeal.TailValue Cert.KernelIdeal.Region

variable (m : (ℓ : Loc nD τ sig) → Buf (Elt Ideal) ℓ)

/-- The result buffer after the closing lines, as the frame run states it, is the loss of the named arrays. -/
theorem result_eq (c : Dev nD) :
    Pipeline.afterTail₀ cfgs (dats m) 0 (V0 m) [hostOps1, hostOps1_1, hostOps1_2] c main_v59
      = loss (F := Ideal)
          (logits (unitRowsIn (F := Ideal) (m ((c : Thread nD τ).loc main_arg0)))
            (clusterSumsIn (F := Ideal) (m ((c : Thread nD τ).loc main_arg2)) (m ((c : Thread nD τ).loc main_arg3))))
          (countsP (F := Ideal) (m ((c : Thread nD τ).loc main_arg3)))
          (populated (F := Ideal) (m ((c : Thread nD τ).loc main_arg3)))
          (m ((c : Thread nD τ).loc main_arg1)) (m ((c : Thread nD τ).loc main_arg3)) := by
  unfold Pipeline.afterTail₀
  refine (tail_of (F := Ideal) _).trans ?_
  have e16 : Pipeline.withArrays (cfgs 0).spec c (V0 m c) (fun w => (dats m 0 c).arrAt w (cfgs 0).N) (Proc.devRef .tc main_v16)
      = logits (unitRowsIn (F := Ideal) (m ((c : Thread nD τ).loc main_arg0)))
          (clusterSumsIn (F := Ideal) (m ((c : Thread nD τ).loc main_arg2)) (m ((c : Thread nD τ).loc main_arg3))) := by
    refine (Pipeline.withArrays_arr spec0 launch0.win.arr_inj c _ _ 2).trans ?_
    refine (final m c).trans ?_
    rw [V_main_v3, V_main_v13]
  have e12 : Pipeline.withArrays (cfgs 0).spec c (V0 m c) (fun w => (dats m 0 c).arrAt w (cfgs 0).N) (Proc.devRef .tc main_v12)
      = countsP (F := Ideal) (m ((c : Thread nD τ).loc main_arg3)) :=
    (Pipeline.withArrays_of_ne _ c (V0 m c) _ main_v12 (by exact (by decide : ∀ w, Pipeline.arrRef spec0 w ≠ main_v12))).trans
      (V_main_v12 m c)
  have e15 : Pipeline.withArrays (cfgs 0).spec c (V0 m c) (fun w => (dats m 0 c).arrAt w (cfgs 0).N) (Proc.devRef .tc main_v15)
      = populated (F := Ideal) (m ((c : Thread nD τ).loc main_arg3)) :=
    (Pipeline.withArrays_of_ne _ c (V0 m c) _ main_v15 (by exact (by decide : ∀ w, Pipeline.arrRef spec0 w ≠ main_v15))).trans
      (V_main_v15 m c)
  have e1 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans
      (V_main_arg1 m c)
  have e3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans
      (V_main_arg3 m c)
  exact congr (congr (congr (congr (congrArg (loss (F := Ideal)) e16) e12) e15) e1) e3

end Cert.KernelIdeal.Value

end
-- ==== Proof.LibHostRows.lean ====
/-
  Host-side row operations read at an index, for arbitrary extents.

  What the host's layout and arithmetic steps hold at one index: a rank-0 array broadcast to any shape, a vector
  laid out as a column, a column stretched over the columns of a matrix, the host's entry-by-entry quotient and
  square root, a row's sum of squares by the host's sum over axis 1 from the zero word, and the host's contraction
  of the rows of one matrix with the rows of another as a plain finite sum.
-/
import proofs.«164942_j8186207666549_2_alg».proof.Proof.LibMatmul
import Idealize.ShloMosaic.PureOps.Ideal.Laws
import Idealize.ShloMosaic.Lib.ValueIdx
import Idealize.ShloMosaic.Lib.Pipeline.Value
import Idealize.ShloMosaic.Lib.KernelVsHost

noncomputable section

open scoped BigOperators

namespace Cert.HostRows

open Idealize.ShloMosaic Idealize.ShloMosaic.ValueIdx

variable {α : Type}

/-- A rank-0 array broadcast to any shape reads, at every index, its one entry. -/
theorem bcast_scalar_apply {t : Shape} (h : (⟨0, ![]⟩ : Shape).BroadcastsInDim t (![] : Fin 0 → Fin t.rank))
    (v : (⟨0, ![]⟩ : Shape).Idx → α) (j : t.Idx) : broadcastInDim t ![] h v j = v ix0 :=
  broadcastInDim_apply _ h v j ix0 fun a => a.elim0

/-- A length-N vector broadcast to an N x 1 column reads, at (n, u), the vector's entry n. -/
theorem bcast_vec_col_apply {N : ℕ} (h : (⟨1, ![N]⟩ : Shape).BroadcastsInDim ⟨2, ![N, 1]⟩ (![0] : Fin 1 → Fin 2))
    (v : (⟨1, ![N]⟩ : Shape).Idx → α) (n : Fin N) (u : Fin 1) :
    broadcastInDim ⟨2, ![N, 1]⟩ ![0] h v (ix2 n u) = v (ix1 n) := by
  refine broadcastInDim_apply _ h v (ix2 n u) (ix1 n) fun a => ?_
  match a with
  | ⟨0, _⟩ =>
    show n.val = if N = 1 then 0 else n.val
    split
    · have := n.isLt; omega
    · rfl

/-- An N x 1 column broadcast to N x K reads, at (n, k), the column's entry (n, 0): every row is constant. -/
theorem bcast_col_apply {N K : ℕ} (h : (⟨2, ![N, 1]⟩ : Shape).BroadcastsInDim ⟨2, ![N, K]⟩ (![0, 1] : Fin 2 → Fin 2))
    (v : (⟨2, ![N, 1]⟩ : Shape).Idx → α) (n : Fin N) (k : Fin K) :
    broadcastInDim ⟨2, ![N, K]⟩ ![0, 1] h v (ix2 n k) = v (ix2 n (0 : Fin 1)) := by
  refine broadcastInDim_apply _ h v (ix2 n k) (ix2 n (0 : Fin 1)) fun a => ?_
  match a with
  | ⟨0, _⟩ =>
    show n.val = if N = 1 then 0 else n.val
    split
    · have := n.isLt; omega
    · rfl
  | ⟨1, _⟩ =>
    show (0 : ℕ) = if (1 : ℕ) = 1 then 0 else k.val
    rw [if_pos rfl]

/-- The host's entry-by-entry quotient reads, at an index, the quotient of the two entries there. -/
theorem hostDivf_apply {s : Shape} {φ : FTy} (a c : FVec Ideal s φ) (i : s.Idx) :
    Host.divf a c i = Ideal.div (a i) (c i) := rfl

/-- The host's entry-by-entry square root reads, at an index, the square root of the entry there. -/
theorem hostSqrt_apply {s : Shape} {φ : FTy} (a : FVec Ideal s φ) (i : s.Idx) :
    Host.sqrt a i = Ideal.sqrt (a i) := rfl

/-- The host's sum along the rows of the entrywise square of an N x K array, started from the zero word, reads at
    row n the plain sum over j of x(n, j) · x(n, j): the zero word denotes 0, which the sum absorbs. -/
theorem rowSumSq_apply {N K : ℕ} (x : FVec Ideal ⟨2, ![N, K]⟩ .f32)
    (h' : (⟨2, ![N, K]⟩ : Shape).ReducesTo [1] ⟨1, ![N]⟩) (hu : 0 < (⟨0, ![]⟩ : Shape).numel) (n : Fin N) :
    Host.reduceAdd (F := Ideal) (mulf (F := Ideal) x x) (constant (F := Ideal) ⟨0, ![]⟩ .f32 0x00000000#32) h' hu (ix1 n)
      = ∑ j : Fin K, x (ix2 n j) * x (ix2 n j) := by
  have h : (⟨2, ![N, K]⟩ : Shape).Reduces [1] ⟨1, ![N]⟩ := h'.elim fun hr hs => ⟨hr, Nat.one_pos, hs⟩
  show Ideal.hostReduceAdd h' (mulf (F := Ideal) x x) (Ideal.ofBits .f32 0x00000000#32) (ix1 n) = _
  rw [Ideal.hostReduceAdd_single h' h, Ideal.ofBits_zero_f32, zero_add]
  refine Finset.sum_congr rfl fun k _ => ?_
  have e : h.lift (ix1 n) k = ix2 n k := by
    funext c
    apply Fin.ext
    match c with
    | ⟨0, _⟩ => rfl
    | ⟨1, _⟩ => rfl
  rw [e]
  rfl

/-- The host's product of an M x K array with an N x K array along their second axes reads, at (p, q), the sum over k
    of lhs(p, k) · rhs(q, k): it is the matrix-unit product into a zero accumulator, which has that reading. -/
theorem dotGeneral_nt_apply {M K N : ℕ} {φ₁ φ₂ : FTy}
    (wf : DotDims.WF ⟨2, ![M, K]⟩ ⟨2, ![N, K]⟩ ⟨2, ![M, N]⟩ [1] [1] [0] [0] [] [])
    (prec : Option ContractPrecision)
    (lhs : FVec Ideal ⟨2, ![M, K]⟩ φ₁) (rhs : FVec Ideal ⟨2, ![N, K]⟩ φ₂) (p : Fin M) (q : Fin N) :
    Host.dotGeneral (F := Ideal) (Cert.MatmulAt.ntDims wf) prec lhs rhs (ix2 p q)
      = ∑ k : Fin K, lhs (ix2 p k) * rhs (ix2 q k) :=
  (congrFun (matmul_zero_eq_dotGeneral (Cert.MatmulAt.ntDims wf) prec lhs rhs) (ix2 p q)).symm.trans
    (Cert.MatmulAt.matmul_zero_nt_apply wf prec lhs rhs p q)

end Cert.HostRows

end
-- ==== Proof.LibScatterRows.lean ====
/-
  A float scatter-add of whole rows into a rank-2 table at a column of row numbers, read at an entry.
-/
import Idealize.ShloMosaic.PureOps.Ideal
import Idealize.ShloMosaic.Lib.ValueIdx

noncomputable section

open Idealize.ShloMosaic Idealize.ShloMosaic.ValueIdx
open scoped BigOperators

namespace Cert.LibRows

/-- The dimension numbers of a scatter of whole rows: operand `[N, C]`, scatter indices `[E, 1]` (one row number per
    update row), updates `[E, C]`; the row axis inserted, the column axis the one window axis. -/
abbrev rowsScatter (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Coordinates
variable {N C E w : Nat} (wf : ScatterDims.WF ⟨2, ![N, C]⟩ ⟨2, ![E, 1]⟩ ⟨2, ![E, C]⟩ [1] [0] [0] 1)
  (idx : IVec ⟨2, ![E, 1]⟩ w) (e : Fin E) (c' : Fin C)

/-- On the row axis the window of update entry `(e, c')` starts at the row number of update row `e`, read signed. -/
theorem rowsScatter_start_row :
    (rowsScatter N C E wf).start (ix2 e c') idx 0 = (idx (ix2 e (0 : Fin 1))).toInt := by
  unfold ScatterDims.start
  rw [dif_pos (show (0 : Fin 2) ∈ (rowsScatter N C E wf).scatterDimsToOperandDims from List.mem_singleton.mpr rfl)]
  have hsi : (rowsScatter N C E wf).siIdx (ix2 e c') ⟨List.idxOf (0 : Fin 2) (rowsScatter N C E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at `0`. -/
theorem rowsScatter_start_col : (rowsScatter N C E wf).start (ix2 e c') idx 1 = 0 := by
  unfold ScatterDims.start
  rw [dif_neg (show ¬ ((1 : Fin 2) ∈ ([0] : List (Fin 2))) from by decide)]

/-- On the row axis the window coordinate is `0`. -/
theorem rowsScatter_window_row : (rowsScatter N C E wf).window (ix2 e c') 0 = 0 := by
  unfold ScatterDims.window
  rw [dif_neg (show ¬ ((0 : Fin 2) ∈ (rowsScatter N C E wf).sKept) from
    (show ¬ ((0 : Fin 2) ∈ (List.finRange 2).filter (fun a => a ∉ ([0] : List (Fin 2)))) from by decide))]

/-- On the column axis the window coordinate is the update entry's column. -/
theorem rowsScatter_window_col : (rowsScatter N C E wf).window (ix2 e c') 1 = c'.val := by
  unfold ScatterDims.window
  rw [dif_pos (show (1 : Fin 2) ∈ (rowsScatter N C E wf).sKept from
    (show (1 : Fin 2) ∈ (List.finRange 2).filter (fun a => a ∉ ([0] : List (Fin 2))) from by decide))]
  rfl

end Coordinates

/-- Update entry `(e, c')` lands at operand entry `(n, c)` exactly when the row number of update row `e`, read signed
    and not clamped, is `n` and the columns agree. -/
theorem rowsScatter_resultIdx_eq_some_iff {N C E w : Nat} (wf : ScatterDims.WF ⟨2, ![N, C]⟩ ⟨2, ![E, 1]⟩ ⟨2, ![E, C]⟩ [1] [0] [0] 1)
    (idx : IVec ⟨2, ![E, 1]⟩ w) (e : Fin E) (c' : Fin C) (n : Fin N) (c : Fin C) :
    (rowsScatter N C E wf).resultIdx? (ix2 e c') idx = some (ix2 n c) ↔ (idx (ix2 e (0 : Fin 1))).toInt = (n.val : Int) ∧ c' = c := by
  have hs0 := rowsScatter_start_row wf idx e c'
  have hs1 := rowsScatter_start_col wf idx e c'
  have hw0 := rowsScatter_window_row wf e c'
  have hw1 := rowsScatter_window_col wf e c'
  have hn := n.isLt
  have hc := c.isLt
  have hc' := c'.isLt
  unfold ScatterDims.resultIdx?
  constructor
  · intro h
    split at h
    · rename_i hin
      have h' := Option.some.inj h
      have e0 : ((rowsScatter N C E wf).start (ix2 e c') idx 0 + ((rowsScatter N C E wf).window (ix2 e c') 0 : Nat)).toNat = n.val :=
        congrArg (fun f => (f 0).val) h'
      have e1 : ((rowsScatter N C E wf).start (ix2 e c') idx 1 + ((rowsScatter N C E wf).window (ix2 e c') 1 : Nat)).toNat = c.val :=
        congrArg (fun f => (f 1).val) h'
      have p0 := (hin 0).1
      rw [hs0, hw0] at e0 p0
      rw [hs1, hw1] at e1
      refine ⟨by omega, Fin.ext (by omega)⟩
    · exact absurd h (by simp)
  · rintro ⟨h1, rfl⟩
    have hin : ∀ a, 0 ≤ (rowsScatter N C E wf).start (ix2 e c') idx a + ((rowsScatter N C E wf).window (ix2 e c') a : Nat)
        ∧ (rowsScatter N C E wf).start (ix2 e c') idx a + ((rowsScatter N C E wf).window (ix2 e c') a : Nat)
          < ((⟨2, ![N, C]⟩ : Shape).size a : Nat) := by
      intro a
      match a with
      | ⟨0, _⟩ =>
        show 0 ≤ (rowsScatter N C E wf).start (ix2 e c') idx 0 + ((rowsScatter N C E wf).window (ix2 e c') 0 : Nat)
          ∧ (rowsScatter N C E wf).start (ix2 e c') idx 0 + ((rowsScatter N C E wf).window (ix2 e c') 0 : Nat) < (N : Int)
        rw [hs0, hw0, h1]; omega
      | ⟨1, _⟩ =>
        show 0 ≤ (rowsScatter N C E wf).start (ix2 e c') idx 1 + ((rowsScatter N C E wf).window (ix2 e c') 1 : Nat)
          ∧ (rowsScatter N C E wf).start (ix2 e c') idx 1 + ((rowsScatter N C E wf).window (ix2 e c') 1 : Nat) < (C : Int)
        rw [hs1, hw1]; omega
    rw [dif_pos hin]
    congr 1
    funext a
    refine Fin.ext ?_
    match a with
    | ⟨0, _⟩ =>
      show ((rowsScatter N C E wf).start (ix2 e c') idx 0 + ((rowsScatter N C E wf).window (ix2 e c') 0 : Nat)).toNat = n.val
      rw [hs0, hw0, h1]; omega
    | ⟨1, _⟩ =>
      show ((rowsScatter N C E wf).start (ix2 e c') idx 1 + ((rowsScatter N C E wf).window (ix2 e c') 1 : Nat)).toNat = c'.val
      rw [hs1, hw1]; omega

/-- At the ideal instance the scatter-add of whole rows read at `(n, c)` is the operand's entry plus the sum, over the
    update rows whose row number (read signed, not clamped) is `n`, of the update's entry in column `c`; an update
    row whose number is outside `[0, N)` lands nowhere. -/
theorem scatterAdd_rows_apply {N C E w : Nat} {φ : FTy} (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (n : Fin N) (c : Fin C) :
    Host.scatterAdd (F := Ideal) (rowsScatter N C E wf) x idx upd (ix2 n c)
      = x (ix2 n c) + ∑ e : Fin E, if (idx (ix2 e (0 : Fin 1))).toInt = (n.val : Int) then upd (ix2 e c) else 0 := by
  change x (ix2 n c) + _ = _
  congr 1
  rw [Finset.sum_filter, sum_idx2]
  refine Finset.sum_congr rfl fun e _ => ?_
  simp only [rowsScatter_resultIdx_eq_some_iff]
  by_cases h : (idx (ix2 e (0 : Fin 1))).toInt = (n.val : Int)
  · simp only [h, true_and, if_true]
    rw [Finset.sum_ite_eq' Finset.univ c (fun c' => upd (ix2 e c'))]
    simp
  · simp only [h, false_and, if_false]
    exact Finset.sum_const_zero

end Cert.LibRows

end
-- ==== Proof.LibPadRows.lean ====
/-
  A matrix padded below with rows of a scalar, read at an entry.
-/
import Idealize.ShloMosaic.Lib.KernelVsHost

noncomputable section

open Idealize.ShloMosaic Idealize.ShloMosaic.ValueIdx

namespace Cert.LibPadRows

/-- A matrix of `n` rows and `C` columns padded below with `h` rows of the padding value has its own entry `(j, k)` in
    every row `j` below `n`, and the padding value in the rows from `n` on. -/
theorem pad_rows_apply {α : Type} {n h t C : Nat} {u : Shape} (x : (⟨2, ![n, C]⟩ : Shape).Idx → α) (v : u.Idx → α)
    (hp : (⟨2, ![n, C]⟩ : Shape).Pads ![0, 0] ![h, 0] ![0, 0] ⟨2, ![t, C]⟩) (hu : 0 < u.numel) (j : Fin t) (k : Fin C) :
    pad ⟨2, ![t, C]⟩ ![0, 0] ![h, 0] ![0, 0] x v hp hu (ix2 j k)
      = if hj : j.val < n then x (ix2 ⟨j.val, hj⟩ k) else v (Shape.Idx.first hu) := by
  by_cases hj : j.val < n
  · rw [dif_pos hj]
    exact pad_apply_of_inside _ _ _ x v hp hu _ (ix2 (⟨j.val, hj⟩ : Fin n) k) (by
      intro a
      match a with
      | ⟨0, _⟩ => show j.val = 0 + j.val * (0 + 1); omega
      | ⟨1, _⟩ => show k.val = 0 + k.val * (0 + 1); omega)
  · rw [dif_neg hj]
    exact pad_apply_of_not_inside _ _ _ x v hp hu _ (0 : Fin 2) (by
      intro hin
      have e : (j.val - 0) / (0 + 1) < n := hin.2.2
      rw [Nat.sub_zero, Nat.div_one] at e
      exact hj e)

end Cert.LibPadRows

end
-- ==== Proof.LibPadTail.lean ====
/-
  A rank-1 array padded at its end with copies of a scalar, read at an entry.
-/
import Idealize.ShloMosaic.Lib.KernelVsHost

noncomputable section

open Idealize.ShloMosaic Idealize.ShloMosaic.ValueIdx
open scoped BigOperators

namespace Cert.LibRows

/-- A vector of `n` entries padded at its end with `h` copies of the padding value has its own entry `j` at every
    entry `j` below `n`, and the padding value from entry `n` on. -/
theorem pad_tail_apply {α : Type} {n h t : Nat} {u : Shape} (x : (⟨1, ![n]⟩ : Shape).Idx → α) (v : u.Idx → α)
    (hp : (⟨1, ![n]⟩ : Shape).Pads ![0] ![h] ![0] ⟨1, ![t]⟩) (hu : 0 < u.numel) (j : Fin t) :
    pad ⟨1, ![t]⟩ ![0] ![h] ![0] x v hp hu (ix1 j) = if hj : j.val < n then x (ix1 ⟨j.val, hj⟩) else v (Shape.Idx.first hu) := by
  by_cases hj : j.val < n
  · rw [dif_pos hj]
    exact pad_apply_of_inside _ _ _ x v hp hu _ (ix1 (⟨j.val, hj⟩ : Fin n)) (by
      intro a
      have ha : a = 0 := Subsingleton.elim _ _
      subst ha
      show j.val = 0 + j.val * (0 + 1); omega)
  · rw [dif_neg hj]
    exact pad_apply_of_not_inside _ _ _ x v hp hu _ (0 : Fin 1) (by
      intro hin
      have e : (j.val - 0) / (0 + 1) < n := hin.2.2
      rw [Nat.sub_zero, Nat.div_one] at e
      exact hj e)

end Cert.LibRows

end
-- ==== Proof.KernelInputs.lean ====
/-
  The arrays the kernel's host program prepares before the region, read at an entry (at the exact instance).

  A normalised batch entry is the entry divided by the square root of its row's sum of squares. A cluster-sum entry (c, k),
  for a cluster c below 8000, is the sum of column k over the memory rows whose label is c; in the 192 padding rows it is 0.
  The padded count of a cluster below 8000 is its count, and 0 in the padding; a padding cluster is therefore not populated.
-/
import proofs.«164942_j8186207666549_2_alg».proof.Proof.KernelHost
import proofs.«164942_j8186207666549_2_alg».proof.Proof.LibHostRows
import proofs.«164942_j8186207666549_2_alg».proof.Proof.LibScatterRows
import proofs.«164942_j8186207666549_2_alg».proof.Proof.LibPadRows
import proofs.«164942_j8186207666549_2_alg».proof.Proof.LibPadTail

set_option maxRecDepth 16384

noncomputable section

namespace Cert.KernelIdeal.Inputs

open Cert.KernelIdeal Cert.KernelIdeal.Gen Cert.KernelIdeal.HostValue
open Idealize.ShloMosaic Idealize.ShloMosaic.ValueIdx
open scoped BigOperators

variable (R : (⟨S256x2048, .f32⟩ : BufTy).Contents (Elt Ideal)) (Fe : (⟨S65536x2048, .f32⟩ : BufTy).Contents (Elt Ideal))
  (L : (⟨S65536, .i32⟩ : BufTy).Contents (Elt Ideal))

/-- A batch row's sum of squares. -/
theorem sumSq_apply (b : Fin 256) : sumSq (F := Ideal) R (ix1 b) = ∑ j : Fin 2048, R (ix2 b j) * R (ix2 b j) :=
  Cert.HostRows.rowSumSq_apply R reducesTo_S256x2048_S256_d1 h_S_ b

/-- A normalised batch entry. -/
theorem unitRows_apply (b : Fin 256) (k : Fin 2048) :
    unitRows (F := Ideal) R (ix2 b k) = Ideal.div (R (ix2 b k)) (Ideal.sqrt (sumSq (F := Ideal) R (ix1 b))) := by
  unfold unitRows
  rw [Cert.HostRows.hostDivf_apply, Cert.HostRows.bcast_col_apply, Cert.HostRows.hostSqrt_apply,
    Cert.HostRows.bcast_vec_col_apply]

/-- The change of format leaves the entry as it is. -/
theorem unitRowsIn_apply (i : S256x2048.Idx) : unitRowsIn (F := Ideal) R i = unitRows (F := Ideal) R i := rfl

/-- The pad value, the integer 0 converted, is 0. -/
theorem padValue_eq (i : S_.Idx) : sitofp (F := Ideal) .f32 (constantI S_ 32 0#32) i = 0 := by
  show ((((0#32 : BitVec 32).toInt : ℤ) : ℝ) : EReal) = 0
  simp

/-- The program's scatter-add of whole rows is the one with these dimension numbers. -/
theorem scatterDims_eq : scatter_S8000x2048_S65536x1_S65536x2048_1_0_0_1
    = Cert.LibRows.rowsScatter 8000 2048 65536 scatter_S8000x2048_S65536x1_S65536x2048_1_0_0_1_wf := rfl

/-- The program's scatter-add of whole rows read at an entry, for any operand, index column and update rows. -/
theorem scatterRows_apply (x : FVec Ideal S8000x2048 .f32) (idx : IVec S65536x1 32) (u : FVec Ideal S65536x2048 .f32)
    (c : Fin 8000) (k : Fin 2048) :
    Host.scatterAdd (F := Ideal) scatter_S8000x2048_S65536x1_S65536x2048_1_0_0_1 x idx u (ix2 c k)
      = x (ix2 c k) + ∑ e : Fin 65536, if (idx (ix2 e (0 : Fin 1))).toInt = (c.val : Int) then u (ix2 e k) else 0 := by
  rw [scatterDims_eq]
  exact Cert.LibRows.scatterAdd_rows_apply (N := 8000) (C := 2048) (E := 65536) (w := 32) (φ := .f32) _ x idx u c k

/-- A cluster-sum entry: the sum of column k over the memory rows labelled c. -/
theorem clusterSums_apply (c : Fin 8000) (k : Fin 2048) :
    clusterSums (F := Ideal) Fe L (ix2 c k)
      = 0 + ∑ e : Fin 65536, if (L (ix1 e)).toInt = (c.val : Int) then Fe (ix2 e k) else 0 := by
  unfold clusterSums
  rw [scatterRows_apply, Cert.HostRows.bcast_scalar_apply]
  refine congrArg₂ (· + ·) Ideal.ofBits_zero_f32 (Finset.sum_congr rfl fun e _ => ?_)
  unfold labelCol
  rw [Cert.HostRows.bcast_vec_col_apply]

/-- A padded cluster-sum entry in a row below 8000 is the cluster sum's. -/
theorem clusterSumsIn_lt (c : Fin 8192) (hc : c.val < 8000) (k : Fin 2048) :
    clusterSumsIn (F := Ideal) Fe L (ix2 c k) = clusterSums (F := Ideal) Fe L (ix2 ⟨c.val, hc⟩ k) := by
  show pad S8192x2048 ![0, 0] ![192, 0] ![0, 0] (clusterSums (F := Ideal) Fe L) (sitofp (F := Ideal) .f32 (constantI S_ 32 0#32))
    pads_S8000x2048_S8192x2048_01920_000 h_S_ (ix2 c k) = _
  rw [Cert.LibPadRows.pad_rows_apply, dif_pos hc]

/-- A padded cluster-sum entry in a padding row is 0. -/
theorem clusterSumsIn_ge (c : Fin 8192) (hc : ¬ c.val < 8000) (k : Fin 2048) :
    clusterSumsIn (F := Ideal) Fe L (ix2 c k) = 0 := by
  show pad S8192x2048 ![0, 0] ![192, 0] ![0, 0] (clusterSums (F := Ideal) Fe L) (sitofp (F := Ideal) .f32 (constantI S_ 32 0#32))
    pads_S8000x2048_S8192x2048_01920_000 h_S_ (ix2 c k) = _
  rw [Cert.LibPadRows.pad_rows_apply, dif_neg hc]
  exact padValue_eq _

/-- The padded count of a cluster below 8000 is its count. -/
theorem countsP_lt (c : Fin 8192) (hc : c.val < 8000) :
    countsP (F := Ideal) L (ix1 c) = counts (F := Ideal) L (ix1 ⟨c.val, hc⟩) := by
  unfold countsP
  rw [Cert.LibRows.pad_tail_apply, dif_pos hc]

/-- The padded count of a padding cluster is 0. -/
theorem countsP_ge (c : Fin 8192) (hc : ¬ c.val < 8000) : countsP (F := Ideal) L (ix1 c) = 0 := by
  unfold countsP
  rw [Cert.LibRows.pad_tail_apply, dif_neg hc]
  exact padValue_eq _

/-- A cluster is populated when its padded count is positive. -/
theorem populated_apply (c : Fin 8192) :
    populated (F := Ideal) L (ix1 c) = Ideal.cmp .ogt (countsP (F := Ideal) L (ix1 c)) 0 := by
  unfold populated
  show Ideal.cmp .ogt (countsP (F := Ideal) L (ix1 c))
    (broadcastInDim S8192 ![] bcast_S_S8192 (constant (F := Ideal) S_ .f32 0x00000000#32) (ix1 c)) = _
  rw [Cert.HostRows.bcast_scalar_apply]
  show Ideal.cmp .ogt _ (Ideal.ofBits .f32 0x00000000#32) = _
  rw [Ideal.ofBits_zero_f32]

/-- A padding cluster is not populated. -/
theorem populated_ge (c : Fin 8192) (hc : ¬ c.val < 8000) : populated (F := Ideal) L (ix1 c) = 0#1 := by
  rw [populated_apply, countsP_ge L c hc]
  simp [Ideal.cmp]

end Cert.KernelIdeal.Inputs

end
-- ==== Proof.LibRowBcast.lean ====
/-
  Host layout steps for per-column quantities and a plain row sum, read at an index, for any sizes: a length-b vector
  laid out as a 1 x b row, a 1 x b row stretched down the rows of an a x b matrix, and the host's sum along the rows of an
  N x K array from the zero word as a plain finite sum.
-/
import Idealize.ShloMosaic.PureOps.Ideal.Laws
import Idealize.ShloMosaic.Lib.ValueIdx
import Idealize.ShloMosaic.Lib.Pipeline.Value

noncomputable section

open scoped BigOperators

namespace Cert.RowBcast

open Idealize.ShloMosaic Idealize.ShloMosaic.ValueIdx

variable {α : Type}

/-- A length-b vector broadcast to a 1 x b row reads, at (u, j), the vector's entry j. -/
theorem bcast_vec_row_apply {b : ℕ} (h : (⟨1, ![b]⟩ : Shape).BroadcastsInDim ⟨2, ![1, b]⟩ (![1] : Fin 1 → Fin 2))
    (v : (⟨1, ![b]⟩ : Shape).Idx → α) (u : Fin 1) (j : Fin b) :
    broadcastInDim ⟨2, ![1, b]⟩ ![1] h v (ix2 u j) = v (ix1 j) := by
  refine broadcastInDim_apply _ h v (ix2 u j) (ix1 j) fun a => ?_
  match a with
  | ⟨0, _⟩ =>
    show j.val = if b = 1 then 0 else j.val
    split
    · have := j.isLt; omega
    · rfl

/-- A 1 x b row broadcast to a x b reads, at (i, j), the row's entry (0, j): every column is constant. -/
theorem bcast_row_apply {a b : ℕ} (h : (⟨2, ![1, b]⟩ : Shape).BroadcastsInDim ⟨2, ![a, b]⟩ (![0, 1] : Fin 2 → Fin 2))
    (v : (⟨2, ![1, b]⟩ : Shape).Idx → α) (i : Fin a) (j : Fin b) :
    broadcastInDim ⟨2, ![a, b]⟩ ![0, 1] h v (ix2 i j) = v (ix2 (0 : Fin 1) j) := by
  refine broadcastInDim_apply _ h v (ix2 i j) (ix2 (0 : Fin 1) j) fun ax => ?_
  match ax with
  | ⟨0, _⟩ =>
    show (0 : ℕ) = if (1 : ℕ) = 1 then 0 else i.val
    rw [if_pos rfl]
  | ⟨1, _⟩ =>
    show j.val = if b = 1 then 0 else j.val
    split
    · have := j.isLt; omega
    · rfl

/-- The host's sum along the rows of an N x K array, started from the zero word, reads at row n the plain sum over j of
    x(n, j): the zero word denotes 0, which the sum absorbs. -/
theorem rowSum_apply {N K : ℕ} (x : FVec Ideal ⟨2, ![N, K]⟩ .f32)
    (h' : (⟨2, ![N, K]⟩ : Shape).ReducesTo [1] ⟨1, ![N]⟩) (hu : 0 < (⟨0, ![]⟩ : Shape).numel) (n : Fin N) :
    Host.reduceAdd (F := Ideal) x (constant (F := Ideal) ⟨0, ![]⟩ .f32 0x00000000#32) h' hu (ix1 n)
      = ∑ j : Fin K, x (ix2 n j) := by
  have h : (⟨2, ![N, K]⟩ : Shape).Reduces [1] ⟨1, ![N]⟩ := h'.elim fun hr hs => ⟨hr, Nat.one_pos, hs⟩
  show Ideal.hostReduceAdd h' x (Ideal.ofBits .f32 0x00000000#32) (ix1 n) = _
  rw [Ideal.hostReduceAdd_single h' h, Ideal.ofBits_zero_f32, zero_add]
  refine Finset.sum_congr rfl fun k _ => ?_
  have e : h.lift (ix1 n) k = ix2 n k := by
    funext c
    apply Fin.ext
    match c with
    | ⟨0, _⟩ => rfl
    | ⟨1, _⟩ => rfl
  exact congrArg x e

end Cert.RowBcast

end
-- ==== Proof.LibGatherPairs.lean ====
/-
  A gather of single entries of a matrix at a list of (row, column) pairs, read at an entry.

  `x[rows, cols]` for a matrix `x` of shape [M, N] and two integer vectors of length E lowers to a gather whose start
  indices are the [E, 2] array of pairs, with both operand axes collapsed and slices of one entry. Read at `e` it is the
  matrix at the pair's row and column, each read signed and clamped into its axis (`[0, M - 1]`, `[0, N - 1]`).
-/
import Idealize.ShloMosaic.PureOps.Ideal
import Idealize.ShloMosaic.Lib.ValueIdx

noncomputable section

open Idealize.ShloMosaic Idealize.ShloMosaic.ValueIdx

namespace Cert.LibPairs

/-- The dimension numbers of a gather of single matrix entries at (row, column) pairs: operand `[M, N]`, start indices
    `[E, 2]`, result `[E]`; both operand axes collapsed, so the result has no offset axis. -/
abbrev pairGather (M N E : Nat) (wf : GatherDims.WF ⟨2, ![M, N]⟩ ⟨2, ![E, 2]⟩ ⟨1, ![E]⟩ [] [0, 1] [] [0, 1] [] 1 ![1, 1]) :
    GatherDims ⟨2, ![M, N]⟩ ⟨2, ![E, 2]⟩ ⟨1, ![E]⟩ where
  offsetDims := []
  collapsedSliceDims := [0, 1]
  operandBatchingDims := []
  startIndicesBatchingDims := []
  startIndexMap := [0, 1]
  indexVectorDim := 1
  sliceSizes := ![1, 1]
  wf := wf

/-- The gather read at `e` is the matrix at the row and the column that pair `e` names, each read signed and clamped
    into its axis. -/
theorem gather_pairs_apply {α : Type} {M N E w : Nat} (hM : 0 < M) (hN : 0 < N)
    (wf : GatherDims.WF ⟨2, ![M, N]⟩ ⟨2, ![E, 2]⟩ ⟨1, ![E]⟩ [] [0, 1] [] [0, 1] [] 1 ![1, 1])
    (x : (⟨2, ![M, N]⟩ : Shape).Idx → α) (idx : IVec ⟨2, ![E, 2]⟩ w) (e : Fin E) :
    Host.gather (pairGather M N E wf) x idx (ix1 e)
      = x (ix2 (⟨min (idx (ix2 e (0 : Fin 2))).toInt.toNat (M - 1), by omega⟩ : Fin M)
               (⟨min (idx (ix2 e (1 : Fin 2))).toInt.toNat (N - 1), by omega⟩ : Fin N)) := by
  unfold Host.gather
  congr 1
  funext a
  refine Fin.ext ?_
  match a with
  | ⟨0, _⟩ =>
    show (pairGather M N E wf).start (ix1 e) idx 0 + (pairGather M N E wf).batchCoord (ix1 e) 0
      + (pairGather M N E wf).offCoord (ix1 e) 0 = _
    rw [GatherDims.batchCoord_eq_zero _ _ _ List.not_mem_nil,
      GatherDims.offCoord_eq_zero _ _ _ (fun h => ((GatherDims.mem_sKept _ _).mp h).1
        (show (0 : Fin 2) ∈ ([0, 1] : List (Fin 2)) from List.mem_cons_self))]
    simp only [Nat.add_zero]
    unfold GatherDims.start
    rw [dif_pos (show (0 : Fin 2) ∈ (pairGather M N E wf).startIndexMap from
      (show (0 : Fin 2) ∈ ([0, 1] : List (Fin 2)) from List.mem_cons_self))]
    have hsi : (pairGather M N E wf).siIdx (ix1 e) ⟨List.idxOf (0 : Fin 2) (pairGather M N E wf).startIndexMap,
        List.idxOf_lt_length_iff.2 (show (0 : Fin 2) ∈ ([0, 1] : List (Fin 2)) from List.mem_cons_self)⟩ = ix2 e (0 : Fin 2) := by
      funext b; refine Fin.ext ?_
      match b with
      | ⟨0, _⟩ => rfl
      | ⟨1, _⟩ => rfl
    rw [hsi]
    rfl
  | ⟨1, _⟩ =>
    show (pairGather M N E wf).start (ix1 e) idx 1 + (pairGather M N E wf).batchCoord (ix1 e) 1
      + (pairGather M N E wf).offCoord (ix1 e) 1 = _
    rw [GatherDims.batchCoord_eq_zero _ _ _ List.not_mem_nil,
      GatherDims.offCoord_eq_zero _ _ _ (fun h => ((GatherDims.mem_sKept _ _).mp h).1
        (show (1 : Fin 2) ∈ ([0, 1] : List (Fin 2)) from List.mem_cons_of_mem _ (List.mem_singleton.mpr rfl)))]
    simp only [Nat.add_zero]
    unfold GatherDims.start
    rw [dif_pos (show (1 : Fin 2) ∈ (pairGather M N E wf).startIndexMap from
      (show (1 : Fin 2) ∈ ([0, 1] : List (Fin 2)) from List.mem_cons_of_mem _ (List.mem_singleton.mpr rfl)))]
    have hsi : (pairGather M N E wf).siIdx (ix1 e) ⟨List.idxOf (1 : Fin 2) (pairGather M N E wf).startIndexMap,
        List.idxOf_lt_length_iff.2 (show (1 : Fin 2) ∈ ([0, 1] : List (Fin 2)) from List.mem_cons_of_mem _ (List.mem_singleton.mpr rfl))⟩ = ix2 e (1 : Fin 2) := by
      funext b; refine Fin.ext ?_
      match b with
      | ⟨0, _⟩ => rfl
      | ⟨1, _⟩ => rfl
    rw [hsi]
    rfl

end Cert.LibPairs

end
-- ==== Proof.LibRank2.lean ====
/-
  Rank-two arrays read at an entry (p, q), for any sizes.

  * the host's matrix product of an M x K by a K x N matrix, at the exact instance, is at entry (p, q) the sum over k
    of lhs(p, k) * rhs(k, q) (`dotGeneral_plain_apply`);
  * two matrices laid side by side (joined along the columns) read at (p, q): the left one at (p, q) when q is one of
    its columns, the right one at (p, q - N₁) otherwise (`concat_cols_left`, `concat_cols_right`); stacked one above the
    other (joined along the rows): the upper one at (p, q), the lower one at (p - M₁, q) (`concat_rows_left`,
    `concat_rows_right`);
  * a length-n vector made a 1 x n row and repeated down M rows reads at (p, q) as the vector's entry q, in the host's
    two-step form (`rowBias_apply`) and in the vector unit's cast-then-broadcast form (`rowBias_vec_apply`);
  * the entrywise sum of two length-n vectors reshaped to a 1 x n row reads at (0, q) as the sum of the two entries q
    (`biasSumRow_apply`).
-/
import Idealize.ShloMosaic.Lib.KernelVsHost
import Idealize.ShloMosaic.Lib.ValueLayout
import proofs.«164942_j8186207666549_2_alg».proof.Proof.LibMatmul

noncomputable section

namespace Cert.Rank2

open Idealize.ShloMosaic Idealize.ShloMosaic.ValueIdx

variable {α : Type}

/-- The host's rows-times-columns product at entry (p, q): the plain contraction over k. -/
theorem dotGeneral_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    Host.dotGeneral (Cert.MatmulAt.plainDims wf) prec lhs rhs (ix2 p q) = ∑ k : Fin K, lhs (ix2 p k) * rhs (ix2 k q) := by
  rw [← matmul_zero_eq_dotGeneral]
  exact Cert.MatmulAt.matmul_zero_plain_apply wf prec lhs rhs p q

/-- Side by side, a column of the left matrix. -/
theorem concat_cols_left {M N₁ N₂ N : ℕ} (x₁ : (⟨2, ![M, N₁]⟩ : Shape).Idx → α) (x₂ : (⟨2, ![M, N₂]⟩ : Shape).Idx → α)
    (h : Shape.Concatenates [(⟨2, ![M, N₁]⟩ : Shape), ⟨2, ![M, N₂]⟩] ⟨2, ![M, N]⟩ 1)
    (p : Fin M) (q : Fin N) (q₁ : Fin N₁) (hq : q₁.val = q.val) :
    concatenate ⟨2, ![M, N]⟩ 1 [⟨⟨2, ![M, N₁]⟩, x₁⟩, ⟨⟨2, ![M, N₂]⟩, x₂⟩] h (ix2 p q) = x₁ (ix2 p q₁) :=
  concatenate_pair_apply_left 1 x₁ x₂ h (ix2 p q) rfl (ix2 p q₁) fun b => match b with
    | ⟨0, _⟩ => rfl
    | ⟨1, _⟩ => hq

/-- Side by side, a column of the right matrix. -/
theorem concat_cols_right {M N₁ N₂ N : ℕ} (x₁ : (⟨2, ![M, N₁]⟩ : Shape).Idx → α) (x₂ : (⟨2, ![M, N₂]⟩ : Shape).Idx → α)
    (h : Shape.Concatenates [(⟨2, ![M, N₁]⟩ : Shape), ⟨2, ![M, N₂]⟩] ⟨2, ![M, N]⟩ 1)
    (p : Fin M) (q : Fin N) (q₂ : Fin N₂) (hq : q₂.val + N₁ = q.val) :
    concatenate ⟨2, ![M, N]⟩ 1 [⟨⟨2, ![M, N₁]⟩, x₁⟩, ⟨⟨2, ![M, N₂]⟩, x₂⟩] h (ix2 p q) = x₂ (ix2 p q₂) :=
  concatenate_pair_apply_right 1 x₁ x₂ h (ix2 p q) rfl rfl (ix2 p q₂)
    (fun b hb => match b, hb with
      | ⟨0, _⟩, _ => rfl
      | ⟨1, _⟩, hb => (hb (Fin.ext rfl)).elim)
    hq

/-- One above the other, a row of the upper matrix. -/
theorem concat_rows_left {M₁ M₂ M N : ℕ} (x₁ : (⟨2, ![M₁, N]⟩ : Shape).Idx → α) (x₂ : (⟨2, ![M₂, N]⟩ : Shape).Idx → α)
    (h : Shape.Concatenates [(⟨2, ![M₁, N]⟩ : Shape), ⟨2, ![M₂, N]⟩] ⟨2, ![M, N]⟩ 0)
    (p : Fin M) (q : Fin N) (p₁ : Fin M₁) (hp : p₁.val = p.val) :
    concatenate ⟨2, ![M, N]⟩ 0 [⟨⟨2, ![M₁, N]⟩, x₁⟩, ⟨⟨2, ![M₂, N]⟩, x₂⟩] h (ix2 p q) = x₁ (ix2 p₁ q) :=
  concatenate_pair_apply_left 0 x₁ x₂ h (ix2 p q) rfl (ix2 p₁ q) fun b => match b with
    | ⟨0, _⟩ => hp
    | ⟨1, _⟩ => rfl

/-- One above the other, a row of the lower matrix. -/
theorem concat_rows_right {M₁ M₂ M N : ℕ} (x₁ : (⟨2, ![M₁, N]⟩ : Shape).Idx → α) (x₂ : (⟨2, ![M₂, N]⟩ : Shape).Idx → α)
    (h : Shape.Concatenates [(⟨2, ![M₁, N]⟩ : Shape), ⟨2, ![M₂, N]⟩] ⟨2, ![M, N]⟩ 0)
    (p : Fin M) (q : Fin N) (p₂ : Fin M₂) (hp : p₂.val + M₁ = p.val) :
    concatenate ⟨2, ![M, N]⟩ 0 [⟨⟨2, ![M₁, N]⟩, x₁⟩, ⟨⟨2, ![M₂, N]⟩, x₂⟩] h (ix2 p q) = x₂ (ix2 p₂ q) :=
  concatenate_pair_apply_right 0 x₁ x₂ h (ix2 p q) rfl rfl (ix2 p₂ q)
    (fun b hb => match b, hb with
      | ⟨0, _⟩, hb => (hb (Fin.ext rfl)).elim
      | ⟨1, _⟩, _ => rfl)
    hp

/-- A vector as a 1 x n row, repeated down M rows (the host's two broadcasts): entry (p, q) is the vector's entry q. -/
theorem rowBias_apply {M n : ℕ} (b : (⟨1, ![n]⟩ : Shape).Idx → α)
    (h₁ : (⟨1, ![n]⟩ : Shape).BroadcastsInDim ⟨2, ![1, n]⟩ (![1] : Fin 1 → Fin 2))
    (h₂ : (⟨2, ![1, n]⟩ : Shape).BroadcastsInDim ⟨2, ![M, n]⟩ (![0, 1] : Fin 2 → Fin 2)) (p : Fin M) (q : Fin n) :
    broadcastInDim ⟨2, ![M, n]⟩ ![0, 1] h₂ (broadcastInDim ⟨2, ![1, n]⟩ ![1] h₁ b) (ix2 p q) = b (ix1 q) := by
  refine (broadcastInDim_apply ![0, 1] h₂ _ (ix2 p q) (ix2 (0 : Fin 1) q) fun a => ?_).trans
    (broadcastInDim_apply ![1] h₁ b (ix2 (0 : Fin 1) q) (ix1 q) fun a => ?_)
  · match a with
    | ⟨0, _⟩ => show (0 : ℕ) = if (1 : ℕ) = 1 then 0 else _; rw [if_pos rfl]
    | ⟨1, _⟩ =>
      show q.val = if n = 1 then 0 else q.val
      split
      · have := q.isLt; omega
      · rfl
  · match a with
    | ⟨0, _⟩ =>
      show q.val = if n = 1 then 0 else q.val
      split
      · have := q.isLt; omega
      · rfl

/-- A 1 x n row cast to its own shape and broadcast down M rows (the vector unit's form): entry (p, q) is the row's
    entry (0, q). -/
theorem rowBias_vec_apply {M n : ℕ} (v : (⟨2, ![1, n]⟩ : Shape).Idx → α)
    (hc : (⟨2, ![1, n]⟩ : Shape).ShapeCasts ⟨2, ![1, n]⟩) (hb : (⟨2, ![1, n]⟩ : Shape).Broadcasts ⟨2, ![M, n]⟩)
    (p : Fin M) (q : Fin n) :
    broadcastTo ⟨2, ![M, n]⟩ (shapeCast ⟨2, ![1, n]⟩ v hc) hb (ix2 p q) = v (ix2 (0 : Fin 1) q) := by
  rw [shapeCast_self]
  refine broadcastTo_apply v hb (ix2 p q) (ix2 (0 : Fin 1) q) fun a => ?_
  match a with
  | ⟨0, _⟩ => show (0 : ℕ) = if (1 : ℕ) = 1 then 0 else _; rw [if_pos rfl]
  | ⟨1, _⟩ =>
    show q.val = if n = 1 then 0 else q.val
    split
    · have := q.isLt; omega
    · rfl

/-- The entrywise sum of two vectors, reshaped to a 1 x n row, at (0, q). -/
theorem biasSumRow_apply {n : ℕ} {φ : FTy} (b₁ b₂ : FVec Ideal ⟨1, ![n]⟩ φ)
    (h : (⟨1, ![n]⟩ : Shape).ShapeCasts ⟨2, ![1, n]⟩) (u : Fin 1) (q : Fin n) :
    shapeCast ⟨2, ![1, n]⟩ (addf b₁ b₂) h (ix2 u q) = b₁ (ix1 q) + b₂ (ix1 q) :=
  shapeCast_a_1a_apply (addf b₁ b₂) h u q

end Cert.Rank2

end
-- ==== Proof.LibWrap.lean ====
/-
  Two facts about 32-bit index words. A number below 2^31 written as a 32-bit word reads back, signed, as itself. A word
  that is not negative is left alone by the host's "count a negative index from the end" step
  (select (t < 0) (t + K) t), whatever the extent K.
-/
import Idealize.ShloMosaic.PureOps.Ideal
import Idealize.ShloMosaic.Lib.Affine

namespace Cert.LibWrap

open Idealize.ShloMosaic

/-- A number below 2^31, as a 32-bit word, reads back signed as itself. -/
theorem toInt_ofNat_of_lt (n : ℕ) (h : n < 2147483648) : (BitVec.ofNat 32 n).toInt = (n : Int) := by
  have h2 : (BitVec.ofNat 32 n).toNat = n := by
    rw [BitVec.toNat_ofNat]
    exact Nat.mod_eq_of_lt (by omega)
  rw [BitVec.toInt_eq_toNat_cond, h2, if_pos (by omega)]

/-- A word that is not negative is not counted from the end. -/
theorem wrap_of_nonneg (t K : BitVec 32) (h0 : 0 ≤ t.toInt) :
    Scalar.select (IntOp.cmpi .slt t 0#32) (IntOp.addi t K) t = t := by
  have hn : ¬ (IntOp.cmpi .slt t 0#32 = 1#1) := by
    rw [IntOp.cmpi_slt]
    show ¬ (t.toInt < (0#32 : BitVec 32).toInt)
    simp
    exact h0
  unfold Scalar.select
  exact if_neg hn

end Cert.LibWrap
-- ==== Proof.KernelSoftmax.lean ====
/-
  The kernel program's closing lines read at an entry (at the exact instance).

  The weight of cluster c in row b is  exp(logit(b, c) / divisor(c)) * [c is populated];  the row's normaliser is the sum of
  its weights plus a small constant; the log-probability is  log(weight / normaliser + a small constant).  When a sample's
  cluster number is a proper column number (at least 0, below 8000) the pick reads its row at exactly that column: a row
  number 0 … 255 and such a column are not negative, so neither is counted from the end, and both are inside the table, so
  neither is clamped.
-/
import proofs.«164942_j8186207666549_2_alg».proof.Proof.KernelTail
import proofs.«164942_j8186207666549_2_alg».proof.Proof.LibHostRows
import proofs.«164942_j8186207666549_2_alg».proof.Proof.LibRowBcast
import proofs.«164942_j8186207666549_2_alg».proof.Proof.LibGatherPairs
import proofs.«164942_j8186207666549_2_alg».proof.Proof.LibRank2
import proofs.«164942_j8186207666549_2_alg».proof.Proof.LibWrap

set_option maxRecDepth 16384

noncomputable section

namespace Cert.KernelIdeal.Softmax

open Cert.KernelIdeal Cert.KernelIdeal.Gen Cert.KernelIdeal.TailValue
open Idealize.ShloMosaic Idealize.ShloMosaic.ValueIdx
open scoped BigOperators

variable (a : (⟨S256x8192, .f32⟩ : BufTy).Contents (Elt Ideal)) (n : (⟨S8192, .f32⟩ : BufTy).Contents (Elt Ideal))
  (p : (⟨S8192, .i1⟩ : BufTy).Contents (Elt Ideal))

/-- The divisor of cluster c: its count where populated, the word for 1 where not. -/
theorem divisor_apply (c : Fin 8192) :
    divisor (F := Ideal) n p (ix1 c) = Scalar.select (p (ix1 c)) (n (ix1 c)) (Ideal.ofBits .f32 0x3F800000#32) := by
  unfold divisor
  show Scalar.select (p (ix1 c)) (n (ix1 c))
    (broadcastInDim S8192 ![] bcast_S_S8192 (id (constant (F := Ideal) S_ .f32 0x3F800000#32)) (ix1 c)) = _
  rw [Cert.HostRows.bcast_scalar_apply]
  rfl

/-- The weight of cluster c in row b. -/
theorem weights_apply (b : Fin 256) (c : Fin 8192) :
    weights (F := Ideal) a n p (ix2 b c)
      = Ideal.exp (Ideal.div (a (ix2 b c)) (divisor (F := Ideal) n p (ix1 c))) * FloatOps.uitofp (F := Ideal) .f32 (p (ix1 c)) := by
  unfold weights
  simp only [mulf, Host.exp, Host.divf, uitofp]
  rw [Cert.RowBcast.bcast_row_apply, Cert.RowBcast.bcast_vec_row_apply, Cert.RowBcast.bcast_row_apply]
  show FloatOps.mulf _ (FloatOps.uitofp (F := Ideal) .f32 (broadcastInDim S1x8192 ![1] bcast_S8192_S1x8192_1 p (ix2 (0 : Fin 1) c))) = _
  rw [Cert.RowBcast.bcast_vec_row_apply]
  rfl

/-- A weight of an unpopulated cluster is 0. -/
theorem weights_of_not_populated (b : Fin 256) (c : Fin 8192) (hp : p (ix1 c) = 0#1) :
    weights (F := Ideal) a n p (ix2 b c) = 0 := by
  rw [weights_apply, hp]
  show _ * ((((0#1 : BitVec 1).toNat : ℕ) : ℝ) : EReal) = 0
  simp

variable (e : (⟨S256x8192, .f32⟩ : BufTy).Contents (Elt Ideal))

/-- A row's normaliser: the sum of the row plus the small constant. -/
theorem normaliser_apply (b : Fin 256) :
    normaliser (F := Ideal) e (ix2 b (0 : Fin 1)) = (∑ c : Fin 8192, e (ix2 b c)) + Ideal.ofBits .f32 0x358637BD#32 := by
  unfold normaliser
  simp only [addf]
  rw [Cert.HostRows.bcast_vec_col_apply, Cert.HostRows.bcast_scalar_apply, Cert.RowBcast.rowSum_apply]
  rfl

/-- The log-probability of cluster c in row b. -/
theorem logProbs_apply (b : Fin 256) (c : Fin 8192) :
    logProbs (F := Ideal) a n p (ix2 b c)
      = Ideal.log (Ideal.div (weights (F := Ideal) a n p (ix2 b c)) (normaliser (F := Ideal) (weights (F := Ideal) a n p) (ix2 b (0 : Fin 1)))
          + Ideal.ofBits .f32 0x358637BD#32) := by
  unfold logProbs
  simp only [Host.log, addf, Host.divf]
  rw [Cert.HostRows.bcast_col_apply, Cert.HostRows.bcast_scalar_apply]
  rfl

/-! ## The pick -/

/-- The row numbers' array holds, at b, the word of b: no row number is negative, so none is counted from the end. -/
theorem rowIds_apply (b : Fin 256) : rowIds (F := Ideal) (ix1 b) = BitVec.ofNat 32 b.val := by
  unfold rowIds
  show Scalar.select (IntOp.cmpi .slt (BitVec.ofNat 32 b.val) (broadcastInDim S256 ![] bcast_S_S256 (constantI S_ 32 0#32) (ix1 b)))
    (IntOp.addi (BitVec.ofNat 32 b.val) (broadcastInDim S256 ![] bcast_S_S256 (constantI S_ 32 256#32) (ix1 b))) (BitVec.ofNat 32 b.val) = _
  rw [Cert.HostRows.bcast_scalar_apply]
  have hb := b.isLt
  exact Cert.LibWrap.wrap_of_nonneg (BitVec.ofNat 32 b.val) _
    (by rw [Cert.LibWrap.toInt_ofNat_of_lt b.val (by omega)]; omega)

variable (lp : (⟨S256x8192, .f32⟩ : BufTy).Contents (Elt Ideal)) (t : (⟨S256, .i32⟩ : BufTy).Contents (Elt Ideal))

/-- The pair array's row component at sample b is the word of b. -/
theorem pickAt_row (b : Fin 256) : pickAt (F := Ideal) t (ix2 b (0 : Fin 2)) = BitVec.ofNat 32 b.val := by
  unfold pickAt
  rw [Cert.Rank2.concat_cols_left _ _ concatenates_S256x1_S256x1_S256x2_d1 b (0 : Fin 2) (0 : Fin 1) rfl,
    Cert.HostRows.bcast_vec_col_apply, rowIds_apply]

/-- The pair array's column component at sample b is the sample's cluster number when that is not negative. -/
theorem pickAt_col (b : Fin 256) (h0 : 0 ≤ (t (ix1 b)).toInt) : pickAt (F := Ideal) t (ix2 b (1 : Fin 2)) = t (ix1 b) := by
  unfold pickAt
  rw [Cert.Rank2.concat_cols_right _ _ concatenates_S256x1_S256x1_S256x2_d1 b (1 : Fin 2) (0 : Fin 1) rfl,
    Cert.HostRows.bcast_vec_col_apply]
  show Scalar.select (IntOp.cmpi .slt (t (ix1 b)) (broadcastInDim S256 ![] bcast_S_S256 (constantI S_ 32 0#32) (ix1 b)))
    (IntOp.addi (t (ix1 b)) (broadcastInDim S256 ![] bcast_S_S256 (constantI S_ 32 8192#32) (ix1 b))) (t (ix1 b)) = _
  rw [Cert.HostRows.bcast_scalar_apply]
  exact Cert.LibWrap.wrap_of_nonneg (t (ix1 b)) _ h0

/-- The picked entry of sample b, for a cluster number that is a proper column number, is row b's entry in that column. -/
theorem picked_apply (b : Fin 256) (h0 : 0 ≤ (t (ix1 b)).toInt) (h1 : (t (ix1 b)).toInt < 8000) :
    picked (F := Ideal) lp t (ix1 b) = lp (ix2 b ⟨(t (ix1 b)).toInt.toNat, by omega⟩) := by
  unfold picked
  refine (Cert.LibPairs.gather_pairs_apply (by decide) (by decide) gather_S256x8192_S256x2_S256_n_01_n_n_01_1_11_wf lp
    (pickAt (F := Ideal) t) b).trans ?_
  congr 1
  funext ax
  apply Fin.ext
  have hb := b.isLt
  match ax with
  | ⟨0, _⟩ =>
    show min (pickAt (F := Ideal) t (ix2 b (0 : Fin 2))).toInt.toNat (256 - 1) = b.val
    rw [pickAt_row, Cert.LibWrap.toInt_ofNat_of_lt b.val (by omega)]
    omega
  | ⟨1, _⟩ =>
    show min (pickAt (F := Ideal) t (ix2 b (1 : Fin 2))).toInt.toNat (8192 - 1) = (t (ix1 b)).toInt.toNat
    rw [pickAt_col t b h0]
    omega

end Cert.KernelIdeal.Softmax

end
-- ==== Proof.LibGatherVec.lean ====
/-
  A gather of single entries of a vector at a column of positions, read at an entry.
-/
import Idealize.ShloMosaic.PureOps.Ideal
import Idealize.ShloMosaic.Lib.ValueIdx

noncomputable section

open Idealize.ShloMosaic Idealize.ShloMosaic.ValueIdx
open scoped BigOperators

namespace Cert.LibVec

/-- The dimension numbers of a gather of single entries of a vector: operand `[N]`, start indices `[E, 1]` (one
    position per result entry), result `[E]`; the operand's one axis collapsed, so the result has no offset axis. -/
abbrev vecGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gather read at `e` is the vector at the position that is the start index of result entry `e`, read signed
    and clamped into `[0, N − 1]`. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e)
      = x (ix1 (⟨min (idx (ix2 e (0 : Fin 1))).toInt.toNat (N - 1), by omega⟩ : Fin N)) := by
  unfold Host.gather
  congr 1
  funext a
  -- the operand has one axis, so there is one coordinate to compare
  obtain rfl : a = 0 := Subsingleton.elim _ _
  refine Fin.ext ?_
  show (vecGather N E wf).start (ix1 e) idx 0 + (vecGather N E wf).batchCoord (ix1 e) 0
    + (vecGather N E wf).offCoord (ix1 e) 0 = _
  -- no batching axis, and the one axis is collapsed: only the clamped start remains
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  -- the start index of result entry `e` is read at row `e`, column `0` of the index column
  have hsi : (vecGather N E wf).siIdx (ix1 e) ⟨List.idxOf (0 : Fin 1) (vecGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.LibVec

end
-- ==== Proof.RefEntries.lean ====
/-
  The reference program's stages read at an entry (at the exact instance), over its stage-by-stage reading.

  The reference forms every (sample, memory row) logit — the dot product of the normalised sample with the memory row, divided by
  the temperature word —, adds the logits up cluster by cluster (a scatter-add of the transposed logits' rows at the label
  column), divides by the cluster's count, and from there proceeds as the kernel program does, over 8000 clusters: masked
  exponentials, a row normaliser, log-probabilities, and the pick of each sample's own cluster.
-/
import proofs.«164942_j8186207666549_2_alg».proof.Proof.RefRead
import proofs.«164942_j8186207666549_2_alg».proof.Proof.LibScatterRows
import proofs.«164942_j8186207666549_2_alg».proof.Proof.LibGatherPairs
import proofs.«164942_j8186207666549_2_alg».proof.Proof.LibGatherVec
import proofs.«164942_j8186207666549_2_alg».proof.Proof.LibRank2
import proofs.«164942_j8186207666549_2_alg».proof.Proof.LibWrap

set_option maxRecDepth 16384

noncomputable section

namespace Cert.ReferenceIdeal.Entries

open Cert.ReferenceIdeal Cert.ReferenceIdeal.Gen Cert.ReferenceIdeal.ReadP Idealize.ShloMosaic Idealize.ShloMosaic.ValueIdx
open scoped BigOperators

variable (R : (⟨S256x2048, .f32⟩ : BufTy).Contents (Elt Ideal)) (I : (⟨S256, .i32⟩ : BufTy).Contents (Elt Ideal))
  (Fe : (⟨S65536x2048, .f32⟩ : BufTy).Contents (Elt Ideal)) (L : (⟨S65536, .i32⟩ : BufTy).Contents (Elt Ideal))

/-- The logit of sample b against memory row e: the dot product of the normalised sample with the row, over the temperature. -/
theorem pairLogit_apply (e : Fin 65536) (b : Fin 256) :
    val_main_v7 (F := Ideal) R Fe (ix2 e b)
      = Ideal.div (∑ k : Fin 2048, val_main_v2 (F := Ideal) R (ix2 b k) * Fe (ix2 e k)) (Ideal.ofBits .f32 0x3D4CCCCD#32) := by
  have h7 : idx_main_v7 (ix2 e b) = ix2 b e := by
    funext a; match a with | ⟨0, _⟩ => rfl | ⟨1, _⟩ => rfl
  rw [val_main_v7_apply, h7, val_main_v6_apply, val_main_v5_apply, val_main_cst_apply, val_main_v4_apply]
  refine congrArg (fun t => Ideal.div t (Ideal.ofBits .f32 0x3D4CCCCD#32)) ?_
  refine Finset.sum_congr rfl fun k _ => ?_
  have hl : lidx_main_v4 (ix2 b e) k = ix2 b k := by
    funext a; match a with | ⟨0, _⟩ => rfl | ⟨1, _⟩ => rfl
  have hr : idx_main_v3 (ridx_main_v4 (ix2 b e) k) = ix2 e k := by
    funext a; match a with | ⟨0, _⟩ => rfl | ⟨1, _⟩ => rfl
  rw [hl, val_main_v3_apply, hr]

/-- The program's scatter-add of whole rows is the one with these dimension numbers. -/
theorem scatterDims_eq : scatter_S8000x256_S65536x1_S65536x256_1_0_0_1
    = Cert.LibRows.rowsScatter 8000 256 65536 scatter_S8000x256_S65536x1_S65536x256_1_0_0_1_wf := rfl

/-- The program's scatter-add of whole rows read at an entry, for any operand, index column and update rows. -/
theorem scatterRows_apply (x : FVec Ideal S8000x256 .f32) (idx : IVec S65536x1 32) (u : FVec Ideal S65536x256 .f32)
    (c : Fin 8000) (b : Fin 256) :
    Host.scatterAdd (F := Ideal) scatter_S8000x256_S65536x1_S65536x256_1_0_0_1 x idx u (ix2 c b)
      = x (ix2 c b) + ∑ e : Fin 65536, if (idx (ix2 e (0 : Fin 1))).toInt = (c.val : Int) then u (ix2 e b) else 0 := by
  rw [scatterDims_eq]
  exact Cert.LibRows.scatterAdd_rows_apply (N := 8000) (C := 256) (E := 65536) (w := 32) (φ := .f32) _ x idx u c b

/-- The cluster logit of cluster c for sample b: the sum of the sample's logits against the memory rows labelled c. -/
theorem clusterLogit_apply (c : Fin 8000) (b : Fin 256) :
    val_main_v10 (F := Ideal) R Fe L (ix2 c b)
      = 0 + ∑ e : Fin 65536, if (L (ix1 e)).toInt = (c.val : Int) then val_main_v7 (F := Ideal) R Fe (ix2 e b) else 0 := by
  unfold val_main_v10
  rw [scatterRows_apply, val_main_v8_apply, val_main_cst_0_apply]
  refine congrArg₂ (· + ·) Ideal.ofBits_zero_f32 (Finset.sum_congr rfl fun e _ => ?_)
  have h9 : idx_main_v9 (ix2 e (0 : Fin 1)) = ix1 e := by
    funext a; match a with | ⟨0, _⟩ => rfl
  rw [val_main_v9_apply, h9]

/-- The weight of cluster c in row b. -/
theorem weights_apply (b : Fin 256) (c : Fin 8000) :
    val_main_v26 (F := Ideal) R Fe L (ix2 b c)
      = Ideal.exp (Ideal.div (val_main_v10 (F := Ideal) R Fe L (ix2 c b)) (val_main_v17 (F := Ideal) L (ix1 c)))
          * FloatOps.uitofp (F := Ideal) .f32 (val_main_v16 (F := Ideal) L (ix1 c)) := by
  have h21 : idx_main_v21 (ix2 b c) = ix2 c b := by
    funext a; match a with | ⟨0, _⟩ => rfl | ⟨1, _⟩ => rfl
  have h25 : idx_main_v23 (idx_main_v25 (ix2 b c)) = ix1 c := by
    funext a; match a with | ⟨0, _⟩ => rfl
  have h19 : idx_main_v18 (idx_main_v19 (ix2 c b)) = ix1 c := by
    funext a; match a with | ⟨0, _⟩ => rfl
  rw [val_main_v26_apply, val_main_v22_apply, val_main_v21_apply, h21, val_main_v20_apply, val_main_v19_apply,
    val_main_v18_apply, h19, val_main_v25_apply, val_main_v24_apply, val_main_v23_apply, h25]
  simp only [Ideal.mulf_def, Ideal.hostUnary_exp_def, Ideal.hostDivf_def]

/-- A row's normaliser: the sum of the row's weights plus the small constant. -/
theorem normaliser_apply (b : Fin 256) :
    val_main_v30 (F := Ideal) R Fe L (ix2 b (0 : Fin 1))
      = (∑ c : Fin 8000, val_main_v26 (F := Ideal) R Fe L (ix2 b c)) + Ideal.ofBits .f32 0x358637BD#32 := by
  have h28 : idx_main_v28 (ix2 b (0 : Fin 1)) = ix1 b := by
    funext a; match a with | ⟨0, _⟩ => rfl
  have h27 : ∀ k : Fin 8000, idx_main_v27 (ix1 b) k = ix2 b k := fun k => by
    funext a; match a with | ⟨0, _⟩ => rfl | ⟨1, _⟩ => rfl
  rw [val_main_v30_apply, val_main_v28_apply, h28, val_main_v29_apply, val_main_cst_6_apply, val_main_v27_apply,
    val_main_cst_5_apply]
  show (Ideal.ofBits .f32 0x00000000#32 + _) + _ = _
  rw [Ideal.ofBits_zero_f32, zero_add]
  refine congrArg (· + Ideal.ofBits .f32 0x358637BD#32) (Finset.sum_congr rfl fun k _ => ?_)
  rw [h27 k]

/-- The log-probability of cluster c in row b. -/
theorem logProbs_apply (b : Fin 256) (c : Fin 8000) :
    val_main_v42 (F := Ideal) R Fe L (ix2 b c)
      = Ideal.log (Ideal.div (val_main_v26 (F := Ideal) R Fe L (ix2 b c)) (val_main_v30 (F := Ideal) R Fe L (ix2 b (0 : Fin 1)))
          + Ideal.ofBits .f32 0x358637BD#32) := by
  have h31 : idx_main_v31 (ix2 b c) = ix2 b (0 : Fin 1) := by
    funext a; match a with | ⟨0, _⟩ => rfl | ⟨1, _⟩ => rfl
  rw [val_main_v42_apply, val_main_v41_apply, val_main_v32_apply, val_main_v31_apply, h31, val_main_v40_apply,
    val_main_cst_8_apply]
  rfl

/-! ## The pick -/

/-- Each sample's own cluster is one of the labels. -/
theorem target_eq (b : Fin 256) : ∃ j : S65536.Idx, val_main_v39 (F := Ideal) I L (ix1 b) = L j := by
  unfold val_main_v39
  exact ⟨_, Cert.LibVec.gather_vec_apply (N := 65536) (E := 256) (w := 32) (by decide)
    gather_S65536_S256x1_S256_n_0_n_n_0_1_1_wf L (val_main_v38 (F := Ideal) I) b⟩

/-- The row numbers' array holds, at b, the word of b. -/
theorem rowIds_apply (b : Fin 256) : val_main_v48 (F := Ideal) (ix1 b) = BitVec.ofNat 32 b.val := by
  have h44 : val_main_v44 (F := Ideal) (ix1 b) = 0#32 := by
    rw [val_main_v44_apply, val_main_c_9_apply]
  rw [val_main_v48_apply, val_main_v45_apply, val_main_v47_apply, val_main_v43_apply, h44]
  have hb := b.isLt
  exact Cert.LibWrap.wrap_of_nonneg (BitVec.ofNat 32 b.val) _
    (by rw [Cert.LibWrap.toInt_ofNat_of_lt b.val (by omega)]; omega)

/-- The pair array's row component at sample b is the word of b. -/
theorem pairs_row (b : Fin 256) : val_main_v56 (F := Ideal) I L (ix2 b (0 : Fin 2)) = BitVec.ofNat 32 b.val := by
  have h54 : idx_main_v54 (ix2 b (0 : Fin 1)) = ix1 b := by
    funext a; match a with | ⟨0, _⟩ => rfl
  unfold val_main_v56
  rw [Cert.Rank2.concat_cols_left _ _ concatenates_S256x1_S256x1_S256x2_d1 b (0 : Fin 2) (0 : Fin 1) rfl,
    val_main_v54_apply, h54, rowIds_apply]

/-- The pair array's column component at sample b is the sample's cluster number when that is not negative. -/
theorem pairs_col (b : Fin 256) (h0 : 0 ≤ (val_main_v39 (F := Ideal) I L (ix1 b)).toInt) :
    val_main_v56 (F := Ideal) I L (ix2 b (1 : Fin 2)) = val_main_v39 (F := Ideal) I L (ix1 b) := by
  have h55 : idx_main_v55 (ix2 b (0 : Fin 1)) = ix1 b := by
    funext a; match a with | ⟨0, _⟩ => rfl
  have h49 : val_main_v49 (F := Ideal) (ix1 b) = 0#32 := by
    rw [val_main_v49_apply, val_main_c_11_apply]
  unfold val_main_v56
  rw [Cert.Rank2.concat_cols_right _ _ concatenates_S256x1_S256x1_S256x2_d1 b (1 : Fin 2) (0 : Fin 1) rfl,
    val_main_v55_apply, h55, val_main_v53_apply, val_main_v50_apply, val_main_v52_apply, h49]
  exact Cert.LibWrap.wrap_of_nonneg _ _ h0

/-- The picked entry of sample b, for a cluster number that is a proper column number, is row b's entry in that column. -/
theorem picked_apply (b : Fin 256) (h0 : 0 ≤ (val_main_v39 (F := Ideal) I L (ix1 b)).toInt)
    (h1 : (val_main_v39 (F := Ideal) I L (ix1 b)).toInt < 8000) :
    val_main_v57 (F := Ideal) R I Fe L (ix1 b)
      = val_main_v42 (F := Ideal) R Fe L (ix2 b ⟨(val_main_v39 (F := Ideal) I L (ix1 b)).toInt.toNat, by omega⟩) := by
  unfold val_main_v57
  refine (Cert.LibPairs.gather_pairs_apply (M := 256) (N := 8000) (E := 256) (w := 32) (by decide) (by decide)
    gather_S256x8000_S256x2_S256_n_01_n_n_01_1_11_wf (val_main_v42 (F := Ideal) R Fe L) (val_main_v56 (F := Ideal) I L) b).trans ?_
  congr 1
  funext ax
  apply Fin.ext
  have hb := b.isLt
  match ax with
  | ⟨0, _⟩ =>
    show min (val_main_v56 (F := Ideal) I L (ix2 b (0 : Fin 2))).toInt.toNat (256 - 1) = b.val
    rw [pairs_row, Cert.LibWrap.toInt_ofNat_of_lt b.val (by omega)]
    omega
  | ⟨1, _⟩ =>
    show min (val_main_v56 (F := Ideal) I L (ix2 b (1 : Fin 2))).toInt.toNat (8000 - 1)
      = (val_main_v39 (F := Ideal) I L (ix1 b)).toInt.toNat
    rw [pairs_col I L b h0]
    omega

end Cert.ReferenceIdeal.Entries

end
-- ==== Proof.Algebra.lean ====
/-
  The algebra that joins the two programs, over finite index types.

  The reference forms every memory row's logit  (sum_k x_k f_(e,k)) * a  and then adds up the logits of the rows e that carry a
  given label; the kernel first adds up those rows, coordinate by coordinate, and takes one dot product with the sum, scaled by a.
  For real x, f and a these agree: the label sum and the dot product are finite sums of reals and exchange, and the factor a
  goes through the sum. On the extended reals the same holds when the entries are real numbers, which is how it is stated here
  (with the coercion written out); it fails at infinities, where a product does not distribute over a sum.

  A sum over n + k terms whose last k terms vanish is the sum of its first n terms: the kernel's table of clusters is padded
  with empty clusters, which contribute nothing to a row's normaliser.
-/
import Mathlib.Data.EReal.Basic
import Mathlib.Algebra.BigOperators.Fin
import Mathlib.Algebra.BigOperators.Ring.Finset

noncomputable section

namespace Cert.Algebra

open scoped BigOperators

/-- A finite sum of reals, read as an extended real, is the sum of the terms read as extended reals. -/
theorem coe_sum {ι : Type} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The exchange over the reals: the dot product with the sum of the selected rows, scaled, is the sum of the selected rows'
    scaled dot products. -/
theorem exchange_real {ι κ : Type} [Fintype ι] [Fintype κ] (x : κ → ℝ) (f : ι → κ → ℝ) (P : ι → Prop) [DecidablePred P] (a : ℝ) :
    (∑ k, x k * (0 + ∑ e, if P e then f e k else 0)) * a = 0 + ∑ e, if P e then (∑ k, x k * f e k) * a else 0 := by
  simp only [zero_add]
  rw [Finset.sum_mul]
  simp only [Finset.mul_sum, Finset.sum_mul]
  rw [Finset.sum_comm]
  refine Finset.sum_congr rfl fun e _ => ?_
  by_cases h : P e
  · simp only [h, if_true]
  · simp only [h, if_false, mul_zero, zero_mul, Finset.sum_const_zero]

/-- The same on the extended reals, for real entries and a real scale. -/
theorem exchange {ι κ : Type} [Fintype ι] [Fintype κ] (x : κ → ℝ) (f : ι → κ → ℝ) (P : ι → Prop) [DecidablePred P] (a : ℝ) :
    (∑ k, (x k : EReal) * ((0 : EReal) + ∑ e, if P e then (f e k : EReal) else 0)) * (a : EReal)
      = (0 : EReal) + ∑ e, if P e then (∑ k, (x k : EReal) * (f e k : EReal)) * (a : EReal) else 0 := by
  have hl : (∑ k, (x k : EReal) * ((0 : EReal) + ∑ e, if P e then (f e k : EReal) else 0)) * (a : EReal)
      = (((∑ k, x k * (0 + ∑ e, if P e then f e k else 0)) * a : ℝ) : EReal) := by
    rw [EReal.coe_mul, coe_sum]
    congr 1
    refine Finset.sum_congr rfl fun k _ => ?_
    rw [EReal.coe_mul, EReal.coe_add, coe_sum, EReal.coe_zero]
    congr 2
    refine Finset.sum_congr rfl fun e _ => ?_
    by_cases h : P e
    · simp only [h, if_true]
    · simp only [h, if_false, EReal.coe_zero]
  have hr : (0 : EReal) + ∑ e, (if P e then (∑ k, (x k : EReal) * (f e k : EReal)) * (a : EReal) else 0)
      = ((0 + ∑ e, (if P e then (∑ k, x k * f e k) * a else 0) : ℝ) : EReal) := by
    rw [EReal.coe_add, coe_sum, EReal.coe_zero]
    congr 1
    refine Finset.sum_congr rfl fun e _ => ?_
    by_cases h : P e
    · simp only [h, if_true]
      rw [EReal.coe_mul, coe_sum]
      rfl
    · simp only [h, if_false, EReal.coe_zero]
  rw [hl, hr, exchange_real]

/-- A sum over n + k terms whose last k terms vanish is the sum of its first n terms. -/
theorem sum_padded {M : Type} [AddCommMonoid M] (n k : ℕ) (g : Fin (n + k) → M) (h : ∀ j : Fin k, g (Fin.natAdd n j) = 0) :
    ∑ i, g i = ∑ i : Fin n, g (Fin.castAdd k i) := by
  rw [Fin.sum_univ_add, Finset.sum_eq_zero (fun j _ => h j), add_zero]

end Cert.Algebra

end
-- ==== Proof.Consts.lean ====
/-
  The float constants the two programs spell, as the extended reals their patterns denote at the exact instance.
  The reference divides the logits by the single-precision word nearest to 0.05, which is the dyadic rational
  13421773 / 2^28; the zero word denotes 0.
-/
import Idealize.ShloMosaic.PureOps.Ideal

noncomputable section

namespace Cert.Consts

open Idealize.ShloMosaic

/-- The zero pattern denotes 0. -/
theorem ofBits_zero : Ideal.ofBits .f32 0x00000000#32 = 0 := by
  simp [Ideal.ofBits, Ideal.ieee]

/-- The temperature's pattern, the single-precision word nearest to 0.05, denotes 13421773 / 2^28. -/
theorem ofBits_temp : Ideal.ofBits .f32 0x3D4CCCCD#32 = ((13421773 / 268435456 : ℝ) : EReal) := by
  simp [Ideal.ofBits, Ideal.ieee, -EReal.coe_mul]; norm_num

/-- The temperature is not zero. -/
theorem temp_ne_zero : (13421773 / 268435456 : ℝ) ≠ 0 := by norm_num

/-- Its reciprocal is the value the kernel's scale is named. -/
theorem one_div_temp : (1 / (13421773 / 268435456 : ℝ)) = (268435456 / 13421773 : ℝ) := by norm_num

end Cert.Consts

end
-- ==== Proof.Bridge.lean ====
/-
  The two programs compute one loss.

  Under the precondition every batch and memory entry is a real number, every label is a cluster number in [0, 8000), and every
  batch row has a positive sum of squares. Then:
  * a normalised batch entry  r / sqrt(s)  (s the row's sum of squares, a positive real) is a real number;
  * for a cluster c below 8000 the kernel's logit  (sum_k x_k (sum over the rows e labelled c of f_(e,k))) * (1/D)  equals the
    reference's cluster logit  sum over the rows e labelled c of ((sum_k x_k f_(e,k)) / D),  D the temperature word: a finite
    exchange of sums of reals, with the kernel's scale named exactly 1/D;
  * the counts, the populated-cluster mask and the divisor agree below 8000, so the weights agree there, and the kernel's 192
    padding clusters have weight 0, so the row normalisers agree;
  * hence the log-probabilities agree at every column below 8000, and each sample's own cluster is such a column, read by both
    programs at the same place.
-/
import proofs.«164942_j8186207666549_2_alg».proof.Proof.KernelInputs
import proofs.«164942_j8186207666549_2_alg».proof.Proof.KernelSoftmax
import proofs.«164942_j8186207666549_2_alg».proof.Proof.KernelRegion
import proofs.«164942_j8186207666549_2_alg».proof.Proof.RefEntries
import proofs.«164942_j8186207666549_2_alg».proof.Proof.Algebra
import proofs.«164942_j8186207666549_2_alg».proof.Proof.Consts

set_option maxRecDepth 16384

noncomputable section

namespace Cert.Bridge

open Idealize.ShloMosaic Idealize.ShloMosaic.ValueIdx
open Cert.KernelIdeal.HostValue Cert.KernelIdeal.TailValue Cert.KernelIdeal.Region
open Cert.ReferenceIdeal.ReadP
open scoped BigOperators

variable (R : (⟨Cert.KernelIdeal.S256x2048, .f32⟩ : BufTy).Contents (Elt Ideal))
  (I : (⟨Cert.KernelIdeal.S256, .i32⟩ : BufTy).Contents (Elt Ideal))
  (Fe : (⟨Cert.KernelIdeal.S65536x2048, .f32⟩ : BufTy).Contents (Elt Ideal))
  (L : (⟨Cert.KernelIdeal.S65536, .i32⟩ : BufTy).Contents (Elt Ideal))

/-! ## Stages the two programs spell alike -/

theorem unitRows_eq : unitRows (F := Ideal) R = val_main_v2 (F := Ideal) R := rfl
theorem counts_eq : counts (F := Ideal) L = val_main_v14 (F := Ideal) L := rfl
theorem targets_eq : targets (F := Ideal) I L = val_main_v39 (F := Ideal) I L := rfl

/-! ## The normalised rows are real -/

theorem unitRows_real (hR : ∀ i, ∃ r : ℝ, R i = (r : EReal)) (hpos : ∀ b : Fin 256, (0 : EReal) < sumSq (F := Ideal) R (ix1 b))
    (b : Fin 256) (k : Fin 2048) : ∃ x : ℝ, unitRows (F := Ideal) R (ix2 b k) = (x : EReal) := by
  choose r hr using hR
  have hs : sumSq (F := Ideal) R (ix1 b) = ((∑ j : Fin 2048, r (ix2 b j) * r (ix2 b j) : ℝ) : EReal) := by
    rw [Cert.KernelIdeal.Inputs.sumSq_apply, Cert.Algebra.coe_sum]
    refine Finset.sum_congr rfl fun j _ => ?_
    rw [hr, EReal.coe_mul]
  have hp := hpos b
  rw [hs] at hp
  have hp' : (0 : ℝ) < ∑ j : Fin 2048, r (ix2 b j) * r (ix2 b j) := by exact_mod_cast hp
  have hsq : (0 : ℝ) < Real.sqrt (∑ j : Fin 2048, r (ix2 b j) * r (ix2 b j)) := Real.sqrt_pos.mpr hp'
  refine ⟨r (ix2 b k) * (1 / Real.sqrt (∑ j : Fin 2048, r (ix2 b j) * r (ix2 b j))), ?_⟩
  rw [Cert.KernelIdeal.Inputs.unitRows_apply, hs, Ideal.sqrt_coe, if_neg (not_lt.mpr hp'.le), Ideal.div_coe hsq.ne', hr,
    EReal.coe_mul]

/-! ## The cluster logits agree -/

theorem logit_eq (hR : ∀ i, ∃ r : ℝ, R i = (r : EReal)) (hF : ∀ i, ∃ r : ℝ, Fe i = (r : EReal))
    (hpos : ∀ b : Fin 256, (0 : EReal) < sumSq (F := Ideal) R (ix1 b))
    (b : Fin 256) (c : Fin 8192) (hc : c.val < 8000) :
    logits (unitRowsIn (F := Ideal) R) (clusterSumsIn (F := Ideal) Fe L) (ix2 b c)
      = val_main_v10 (F := Ideal) R Fe L (ix2 (⟨c.val, hc⟩ : Fin 8000) b) := by
  choose f hf using hF
  choose x hx using fun k => unitRows_real R hR hpos b k
  rw [logits_apply, Cert.ReferenceIdeal.Entries.clusterLogit_apply, scale_eq]
  have hl : ∀ k : Fin 2048, unitRowsIn (F := Ideal) R (ix2 b k) * clusterSumsIn (F := Ideal) Fe L (ix2 c k)
      = (x k : EReal) * ((0 : EReal) + ∑ e : Fin 65536,
          if (L (ix1 e)).toInt = ((⟨c.val, hc⟩ : Fin 8000).val : Int) then ((f (ix2 e k) : ℝ) : EReal) else 0) := fun k => by
    rw [Cert.KernelIdeal.Inputs.unitRowsIn_apply, hx, Cert.KernelIdeal.Inputs.clusterSumsIn_lt Fe L c hc,
      Cert.KernelIdeal.Inputs.clusterSums_apply]
    refine congrArg (fun t => (x k : EReal) * ((0 : EReal) + t)) (Finset.sum_congr rfl fun e _ => ?_)
    rw [hf]
  have hr : ∀ e : Fin 65536, val_main_v7 (F := Ideal) R Fe (ix2 e b)
      = (∑ k : Fin 2048, (x k : EReal) * ((f (ix2 e k) : ℝ) : EReal)) * ((268435456 / 13421773 : ℝ) : EReal) := fun e => by
    rw [Cert.ReferenceIdeal.Entries.pairLogit_apply, Cert.Consts.ofBits_temp, Ideal.div_coe Cert.Consts.temp_ne_zero,
      Cert.Consts.one_div_temp]
    refine congrArg (· * ((268435456 / 13421773 : ℝ) : EReal)) (Finset.sum_congr rfl fun k _ => ?_)
    rw [← unitRows_eq, hx, hf]
  rw [Finset.sum_congr rfl fun k _ => hl k]
  have hrhs : (0 : EReal) + ∑ e : Fin 65536, (if (L (ix1 e)).toInt = ((⟨c.val, hc⟩ : Fin 8000).val : Int)
        then val_main_v7 (F := Ideal) R Fe (ix2 e b) else 0)
      = (0 : EReal) + ∑ e : Fin 65536, (if (L (ix1 e)).toInt = ((⟨c.val, hc⟩ : Fin 8000).val : Int)
        then (∑ k : Fin 2048, (x k : EReal) * ((f (ix2 e k) : ℝ) : EReal)) * ((268435456 / 13421773 : ℝ) : EReal) else 0) := by
    refine congrArg ((0 : EReal) + ·) (Finset.sum_congr rfl fun e _ => ?_)
    rw [hr e]
  rw [hrhs]
  exact Cert.Algebra.exchange x (fun e k => f (ix2 e k)) (fun e => (L (ix1 e)).toInt = ((⟨c.val, hc⟩ : Fin 8000).val : Int))
    (268435456 / 13421773)

/-! ## Counts, mask and divisor agree below 8000 -/

theorem populated_eq (c : Fin 8192) (hc : c.val < 8000) :
    populated (F := Ideal) L (ix1 c) = val_main_v16 (F := Ideal) L (ix1 (⟨c.val, hc⟩ : Fin 8000)) := by
  rw [Cert.KernelIdeal.Inputs.populated_apply, Cert.KernelIdeal.Inputs.countsP_lt L c hc, counts_eq, val_main_v16_apply,
    val_main_v15_apply, val_main_cst_3_apply]
  show _ = Ideal.cmp .ogt _ (Ideal.ofBits .f32 0x00000000#32)
  rw [Ideal.ofBits_zero_f32]

theorem divisor_eq (c : Fin 8192) (hc : c.val < 8000) :
    divisor (F := Ideal) (countsP (F := Ideal) L) (populated (F := Ideal) L) (ix1 c)
      = val_main_v17 (F := Ideal) L (ix1 (⟨c.val, hc⟩ : Fin 8000)) := by
  rw [Cert.KernelIdeal.Softmax.divisor_apply, populated_eq L c hc, Cert.KernelIdeal.Inputs.countsP_lt L c hc, counts_eq,
    val_main_v17_apply, val_main_call1_v1_apply, val_main_call1_v0_apply, val_main_cst_4_apply]
  rfl

/-! ## Weights, normalisers and log-probabilities -/

/-- The kernel's logits table, its padded counts and its mask, as the closing lines read them. -/
abbrev kLogits : (⟨Cert.KernelIdeal.S256x8192, .f32⟩ : BufTy).Contents (Elt Ideal) :=
  logits (unitRowsIn (F := Ideal) R) (clusterSumsIn (F := Ideal) Fe L)

theorem weights_eq (hR : ∀ i, ∃ r : ℝ, R i = (r : EReal)) (hF : ∀ i, ∃ r : ℝ, Fe i = (r : EReal))
    (hpos : ∀ b : Fin 256, (0 : EReal) < sumSq (F := Ideal) R (ix1 b))
    (b : Fin 256) (c : Fin 8192) (hc : c.val < 8000) :
    weights (F := Ideal) (kLogits R Fe L) (countsP (F := Ideal) L) (populated (F := Ideal) L) (ix2 b c)
      = val_main_v26 (F := Ideal) R Fe L (ix2 b (⟨c.val, hc⟩ : Fin 8000)) := by
  rw [Cert.KernelIdeal.Softmax.weights_apply, Cert.ReferenceIdeal.Entries.weights_apply, divisor_eq L c hc, populated_eq L c hc,
    show kLogits R Fe L (ix2 b c) = val_main_v10 (F := Ideal) R Fe L (ix2 (⟨c.val, hc⟩ : Fin 8000) b) from
      logit_eq R Fe L hR hF hpos b c hc]

theorem weights_pad (b : Fin 256) (c : Fin 8192) (hc : ¬ c.val < 8000) :
    weights (F := Ideal) (kLogits R Fe L) (countsP (F := Ideal) L) (populated (F := Ideal) L) (ix2 b c) = 0 :=
  Cert.KernelIdeal.Softmax.weights_of_not_populated _ _ _ b c (Cert.KernelIdeal.Inputs.populated_ge L c hc)

theorem normaliser_eq (hR : ∀ i, ∃ r : ℝ, R i = (r : EReal)) (hF : ∀ i, ∃ r : ℝ, Fe i = (r : EReal))
    (hpos : ∀ b : Fin 256, (0 : EReal) < sumSq (F := Ideal) R (ix1 b)) (b : Fin 256) :
    normaliser (F := Ideal) (weights (F := Ideal) (kLogits R Fe L) (countsP (F := Ideal) L) (populated (F := Ideal) L)) (ix2 b (0 : Fin 1))
      = val_main_v30 (F := Ideal) R Fe L (ix2 b (0 : Fin 1)) := by
  rw [Cert.KernelIdeal.Softmax.normaliser_apply, Cert.ReferenceIdeal.Entries.normaliser_apply]
  refine congrArg (· + Ideal.ofBits .f32 0x358637BD#32) ?_
  have hpad := Cert.Algebra.sum_padded (M := EReal) 8000 192
    (fun c : Fin 8192 => weights (F := Ideal) (kLogits R Fe L) (countsP (F := Ideal) L) (populated (F := Ideal) L) (ix2 b c))
    (fun j => weights_pad R Fe L b (Fin.natAdd 8000 j) (by
      show ¬ (8000 + j.val < 8000)
      omega))
  refine hpad.trans (Finset.sum_congr rfl fun i _ => ?_)
  exact weights_eq R Fe L hR hF hpos b (Fin.castAdd 192 i) i.isLt

theorem logProbs_eq (hR : ∀ i, ∃ r : ℝ, R i = (r : EReal)) (hF : ∀ i, ∃ r : ℝ, Fe i = (r : EReal))
    (hpos : ∀ b : Fin 256, (0 : EReal) < sumSq (F := Ideal) R (ix1 b))
    (b : Fin 256) (c : Fin 8192) (hc : c.val < 8000) :
    logProbs (F := Ideal) (kLogits R Fe L) (countsP (F := Ideal) L) (populated (F := Ideal) L) (ix2 b c)
      = val_main_v42 (F := Ideal) R Fe L (ix2 b (⟨c.val, hc⟩ : Fin 8000)) := by
  rw [Cert.KernelIdeal.Softmax.logProbs_apply, Cert.ReferenceIdeal.Entries.logProbs_apply, weights_eq R Fe L hR hF hpos b c hc,
    normaliser_eq R Fe L hR hF hpos b]

/-! ## The picks -/

theorem picked_eq (hR : ∀ i, ∃ r : ℝ, R i = (r : EReal)) (hF : ∀ i, ∃ r : ℝ, Fe i = (r : EReal))
    (hL0 : ∀ j, 0 ≤ (L j).toInt) (hL1 : ∀ j, (L j).toInt < 8000)
    (hpos : ∀ b : Fin 256, (0 : EReal) < sumSq (F := Ideal) R (ix1 b)) :
    picked (F := Ideal) (logProbs (F := Ideal) (kLogits R Fe L) (countsP (F := Ideal) L) (populated (F := Ideal) L))
        (targets (F := Ideal) I L)
      = val_main_v57 (F := Ideal) R I Fe L := by
  funext j
  obtain ⟨b, rfl⟩ : ∃ b : Fin 256, j = ix1 b := ⟨j 0, eq_ix1 j⟩
  obtain ⟨jl, hjl⟩ := Cert.ReferenceIdeal.Entries.target_eq I L b
  have h0 : 0 ≤ (val_main_v39 (F := Ideal) I L (ix1 b)).toInt := by rw [hjl]; exact hL0 jl
  have h1 : (val_main_v39 (F := Ideal) I L (ix1 b)).toInt < 8000 := by rw [hjl]; exact hL1 jl
  rw [targets_eq, Cert.KernelIdeal.Softmax.picked_apply _ _ b h0 h1, Cert.ReferenceIdeal.Entries.picked_apply R I Fe L b h0 h1]
  exact logProbs_eq R Fe L hR hF hpos b ⟨(val_main_v39 (F := Ideal) I L (ix1 b)).toInt.toNat, by omega⟩ (by
    show (val_main_v39 (F := Ideal) I L (ix1 b)).toInt.toNat < 8000
    omega)

/-- The loss of the kernel's closing lines over its logits table is the reference's result stage. -/
theorem loss_eq (hR : ∀ i, ∃ r : ℝ, R i = (r : EReal)) (hF : ∀ i, ∃ r : ℝ, Fe i = (r : EReal))
    (hL0 : ∀ j, 0 ≤ (L j).toInt) (hL1 : ∀ j, (L j).toInt < 8000)
    (hpos : ∀ b : Fin 256, (0 : EReal) < sumSq (F := Ideal) R (ix1 b)) :
    loss (F := Ideal) (kLogits R Fe L) (countsP (F := Ideal) L) (populated (F := Ideal) L) I L
      = val_main_v60 (F := Ideal) R I Fe L := by
  unfold loss
  rw [picked_eq R I Fe L hR hF hL0 hL1 hpos]
  rfl

end Cert.Bridge

end
-- ==== Proof.Domain.lean ====
/-
  What the precondition says of the argument arrays, in plain terms.

  The printed predicate is a conjunction of five "for all" tests, each a reduction by "and" of an array of bits: every batch
  entry and every memory entry has absolute value below +infinity (so is a real number), every label lies in [0, 8000),
  and every batch row's sum of squares is positive (so the row can be divided by its norm). Read at the exact instance, where
  a comparison is the order's and the infinity pattern is the top element.
-/
import proofs.«164942_j8186207666549_2_alg».proof.Pre_finite_inputs
import Idealize.ShloMosaic.PureOps.Ideal
import Idealize.ShloMosaic.Lib.ReduceAll
import Idealize.ShloMosaic.Lib.ValueIdx
import Idealize.ShloMosaic.Lib.Pipeline.Value

noncomputable section

namespace Cert.Domain

open Idealize.ShloMosaic Cert.Pre_finite_inputs

variable [Cert.Pre_finite_inputs.Facts]
open Cert.Pre_finite_inputs.Facts

instance : Subsingleton S_.Idx := ⟨fun _ _ => funext fun d => d.elim0⟩

/-- The infinity pattern denotes the top element. -/
theorem ofBits_inf : Ideal.ofBits .f32 0x7F800000#32 = ⊤ := by
  simp [Ideal.ofBits, Ideal.ieee]

/-- An extended real whose absolute value is below +infinity is a real number. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- The facts the precondition gives. -/
structure Holds (R : FVec Ideal S256x2048 .f32) (Fe : FVec Ideal S65536x2048 .f32) (L : IVec S65536 32) : Prop where
  /-- every batch entry is a real number -/
  realR : ∀ i, ∃ r : ℝ, R i = (r : EReal)
  /-- every memory entry is a real number -/
  realF : ∀ i, ∃ r : ℝ, Fe i = (r : EReal)
  /-- no label is negative -/
  lab0 : ∀ j, 0 ≤ (L j).toInt
  /-- every label is below the number of clusters -/
  lab1 : ∀ j, (L j).toInt < 8000
  /-- every batch row's sum of squares is positive -/
  pos : ∀ b : S256.Idx, (0 : EReal) <
    Host.reduceAdd (F := Ideal) (mulf R R) (constant (F := Ideal) S_ .f32 0x00000000#32) reducesTo_S256x2048_S256_d1 h_S_ b

theorem of_pre (R : FVec Ideal S256x2048 .f32) (I : IVec S256 32) (Fe : FVec Ideal S65536x2048 .f32) (L : IVec S65536 32)
    (h : fn (F := Ideal) R I Fe L = fun _ => 1#1) : Holds R Fe L := by
  have h0 := congrFun h ValueIdx.ix0
  dsimp only [fn, fn_part1, andi] at h0
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  refine ⟨fun i => ?_, fun i => ?_, fun j => ?_, fun j => ?_, fun b => ?_⟩
  · have e := Host.reduce_andi_all _ _ _ _ _ h1 i
    change Ideal.cmp .olt (max (R i) (-(R i))) (broadcastInDim S256x2048 ![] bcast_S_S256x2048 (constant (F := Ideal) S_ .f32 0x7F800000#32) i) = 1#1 at e
    rw [broadcastInDim_apply _ bcast_S_S256x2048 _ i ValueIdx.ix0 (fun a => a.elim0)] at e
    change Ideal.cmp .olt (max (R i) (-(R i))) (Ideal.ofBits .f32 0x7F800000#32) = 1#1 at e
    rw [ofBits_inf] at e
    exact real_of_abs_lt_top _ e
  · have e := Host.reduce_andi_all _ _ _ _ _ h2 i
    change Ideal.cmp .olt (max (Fe i) (-(Fe i))) (broadcastInDim S65536x2048 ![] bcast_S_S65536x2048 (constant (F := Ideal) S_ .f32 0x7F800000#32) i) = 1#1 at e
    rw [broadcastInDim_apply _ bcast_S_S65536x2048 _ i ValueIdx.ix0 (fun a => a.elim0)] at e
    change Ideal.cmp .olt (max (Fe i) (-(Fe i))) (Ideal.ofBits .f32 0x7F800000#32) = 1#1 at e
    rw [ofBits_inf] at e
    exact real_of_abs_lt_top _ e
  · have e := Host.reduce_andi_all _ _ _ _ _ h3 j
    change IntOp.cmpi .sge (L j) (broadcastInDim S65536 ![] bcast_S_S65536 (constantI S_ 32 0#32) j) = 1#1 at e
    rw [broadcastInDim_apply _ bcast_S_S65536 _ j ValueIdx.ix0 (fun a => a.elim0)] at e
    have e' := IntOp.cmpi_sge.1 e
    simpa [constantI] using e'
  · have e := Host.reduce_andi_all _ _ _ _ _ h4 j
    change IntOp.cmpi .slt (L j) (broadcastInDim S65536 ![] bcast_S_S65536 (constantI S_ 32 8000#32) j) = 1#1 at e
    rw [broadcastInDim_apply _ bcast_S_S65536 _ j ValueIdx.ix0 (fun a => a.elim0)] at e
    have e' := IntOp.cmpi_slt.1 e
    simpa [constantI] using e'
  · have e := Host.reduce_andi_all _ _ _ _ _ h5 b
    change Ideal.cmp .ogt (Host.reduceAdd (F := Ideal) (mulf R R) (constant (F := Ideal) S_ .f32 0x00000000#32) reducesTo_S256x2048_S256_d1 h_S_ b)
      (broadcastInDim S256 ![] bcast_S_S256 (constant (F := Ideal) S_ .f32 0x00000000#32) b) = 1#1 at e
    rw [broadcastInDim_apply _ bcast_S_S256 _ b ValueIdx.ix0 (fun a => a.elim0)] at e
    change Ideal.cmp .ogt _ (Ideal.ofBits .f32 0x00000000#32) = 1#1 at e
    have hz : Ideal.ofBits .f32 0x00000000#32 = 0 := by simp [Ideal.ofBits, Ideal.ieee]
    rw [hz] at e
    unfold Ideal.cmp at e
    by_contra hn
    simp [hn] at e

end Cert.Domain

end
-- ==== Proof.lean ====
/-
  The claim: a batch's cluster-contrast loss computed two ways.

  The reference scores every normalised sample against every memory row (a 256 x 65536 table of dot products over the
  temperature), adds the scores up cluster by cluster, divides by the cluster's size, and takes minus the mean, over the
  samples, of the log of the masked softmax at the sample's own cluster. The kernel program first adds the memory rows up
  cluster by cluster, pads the table to 8192 clusters, and has the matrix unit score the samples against the cluster sums
  directly, scaled by the reciprocal of the temperature; the rest it does as the reference, over 8192 columns.

  On the extended reals the two agree when the entries are real numbers (the label sum and the dot product then exchange, and
  the scale goes through the sum), when no batch row is zero (a zero row's normalisation 0/0 is not a number and spoils the
  exchange), and when every label is a cluster number in [0, 8000) (the two tables differ in width, so a label outside the range
  would be read at different places). The kernel's scale, the single-precision word 20, is named the exact reciprocal of the
  reference's temperature word. The three frame conjuncts come from the generated frame and run modules.
-/
import proofs.«164942_j8186207666549_2_alg».proof.Defs
import proofs.«164942_j8186207666549_2_alg».proof.Proof.Gen.Kernel
import proofs.«164942_j8186207666549_2_alg».proof.Proof.Gen.Kernel.Skeleton
import proofs.«164942_j8186207666549_2_alg».proof.Proof.Gen.Kernel.Launch
import proofs.«164942_j8186207666549_2_alg».proof.Proof.Gen.Kernel.Points
import proofs.«164942_j8186207666549_2_alg».proof.Proof.Gen.Kernel.Frame
import proofs.«164942_j8186207666549_2_alg».proof.Proof.Gen.KernelIdeal
import proofs.«164942_j8186207666549_2_alg».proof.Proof.Gen.KernelIdeal.Skeleton
import proofs.«164942_j8186207666549_2_alg».proof.Proof.Gen.KernelIdeal.Launch
import proofs.«164942_j8186207666549_2_alg».proof.Proof.Gen.KernelIdeal.Points
import proofs.«164942_j8186207666549_2_alg».proof.Proof.Gen.KernelIdeal.Frame
import proofs.«164942_j8186207666549_2_alg».proof.Proof.Gen.ReferenceIdeal
import proofs.«164942_j8186207666549_2_alg».proof.Proof.Gen.Pre_finite_inputs
import proofs.«164942_j8186207666549_2_alg».proof.Proof.RefRun
import proofs.«164942_j8186207666549_2_alg».proof.Proof.RefRead
import proofs.«164942_j8186207666549_2_alg».proof.Proof.KernelValue
import proofs.«164942_j8186207666549_2_alg».proof.Proof.Bridge
import proofs.«164942_j8186207666549_2_alg».proof.Proof.Domain
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The word-level kernel program runs and leaves its arguments as they were: the generated frame. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The one rewrite of the idealization: the scale word 20 is named 2^28 / 13421773, the reciprocal of the temperature word. -/
theorem preserves : Cert.preserves_Kernel_KernelIdeal :=
  IdealRules.named_const.statement Cert.KernelIdeal.κ "inv_temp" .f32 0x41A00000#32 ((268435456 / 13421773 : ℝ) : EReal) rfl

/-- Both programs end with the reference's result stage of the argument arrays in their result buffers. -/
theorem algebraic : Cert.algebraic_KernelIdeal_ReferenceIdeal := by
  intro m ρ m' ρ' hpre hagree
  refine ⟨fun c => Cert.ReferenceIdeal.ReadP.val_main_v60 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ?_) (Cert.KernelIdeal.Gen.run_main m ρ)
    have hd := Cert.Domain.of_pre _ _ _ _ (hpre c)
    refine ⟨?_,
      ((h c).2 Cert.KernelIdeal.main_arg0 (Pipeline.mem_restRefs_of Cert.KernelIdeal.main_arg0 (by decide) (by decide))).trans
        (Cert.KernelIdeal.Gen.W_main_arg0 m (Cert.KernelIdeal.Gen.dats m) c),
      ((h c).2 Cert.KernelIdeal.main_arg1 (Pipeline.mem_restRefs_of Cert.KernelIdeal.main_arg1 (by decide) (by decide))).trans
        (Cert.KernelIdeal.Gen.W_main_arg1 m (Cert.KernelIdeal.Gen.dats m) c),
      ((h c).2 Cert.KernelIdeal.main_arg2 (Pipeline.mem_restRefs_of Cert.KernelIdeal.main_arg2 (by decide) (by decide))).trans
        (Cert.KernelIdeal.Gen.W_main_arg2 m (Cert.KernelIdeal.Gen.dats m) c),
      ((h c).2 Cert.KernelIdeal.main_arg3 (Pipeline.mem_restRefs_of Cert.KernelIdeal.main_arg3 (by decide) (by decide))).trans
        (Cert.KernelIdeal.Gen.W_main_arg3 m (Cert.KernelIdeal.Gen.dats m) c)⟩
    refine ((h c).2 Cert.KernelIdeal.main_v59
      (Pipeline.mem_restRefs_of Cert.KernelIdeal.main_v59 (by decide) (by decide))).trans ?_
    refine (Cert.KernelIdeal.Value.result_eq m c).trans ?_
    exact Cert.Bridge.loss_eq _ _ _ _ hd.realR hd.realF hd.lab0 hd.lab1 (fun b => hd.pos (ix1 b))
  · refine (θ_run Cert.ReferenceIdeal.defs _ _).mono (fun r h c => ⟨?_, (h c).2⟩)
      (Cert.ReferenceIdeal.ValueP.run (F := Ideal) m' ρ')
    rw [(h c).1, Cert.ReferenceIdeal.ReadP.val_main_v60_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
